-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_1048576_11863283" .f32 0x3DB504F3#32 ((1048576 / 11863283 : ℝ) : EReal)
  ∧ IdealRules.named_const.Statement Cert.KernelIdeal.κ "fold_c_1048576_11863283" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S64x2048x1 : Shape := ⟨3, ![64, 2048, 1]⟩
abbrev S1x1024x128 : Shape := ⟨3, ![1, 1024, 128]⟩
abbrev S1x2048x128 : Shape := ⟨3, ![1, 2048, 128]⟩
abbrev S1x1024x1 : Shape := ⟨3, ![1, 1024, 1]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S64x1x2048 : Shape := ⟨3, ![64, 1, 2048]⟩
abbrev S1x1x2048 : Shape := ⟨3, ![1, 1, 2048]⟩
abbrev S1x2048 : Shape := ⟨2, ![1, 2048]⟩
abbrev S2048 : Shape := ⟨1, ![2048]⟩
abbrev S4x16x2048 : Shape := ⟨3, ![4, 16, 2048]⟩

abbrev nBuf : Space → Nat
  | .hbm => 11
  | .vmem => 19
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S64x2048x1, .f32⟩
  | .hbm, ⟨8, _⟩ => ⟨S64x1x2048, .f32⟩
  | .hbm, ⟨9, _⟩ => ⟨S4x16x2048x128, .f32⟩
  | .hbm, ⟨10, _⟩ => ⟨S4x16x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x128, .f32⟩
  | .local _ .vmem, ⟨11, _⟩ => ⟨S1x1024x128, .f32⟩
  | .local _ .vmem, ⟨12, _⟩ => ⟨S1x2048x128, .f32⟩
  | .local _ .vmem, ⟨13, _⟩ => ⟨S1x2048x128, .f32⟩
  | .local _ .vmem, ⟨14, _⟩ => ⟨S1x1024x1, .f32⟩
  | .local _ .vmem, ⟨15, _⟩ => ⟨S1x1024x1, .f32⟩
  | .local _ .vmem, ⟨16, _⟩ => ⟨S1x1x2048, .f32⟩
  | .local _ .vmem, ⟨17, _⟩ => ⟨S1x1x2048, .f32⟩
  | .local _ .vmem, ⟨18, _⟩ => ⟨S1x2048, .f32⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![64, 2], ![false, false]⟩

def k1_cond2 (i : grid1.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_15 : BitVec 32 := 0#32
  let v26 : BitVec 1 := Scalar.cmpi .ne v25 c0_i32_15
  v26

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x16x2048x128_S64x2048x128 : S4x16x2048x128.ShapeCasts S64x2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1024x2048_S2048 : S1024x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S64x2048x128_S4x16x2048x128 : S64x2048x128.ShapeCasts S4x16x2048x128
  shapeCasts_S64x1x2048_S4x16x2048 : S64x1x2048.ShapeCasts S4x16x2048
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x2048x128.size a
  hwx0_0 : ∀ i : grid0.Coords, EltTy.bits .f32 = 32 ∨ (Rect.block (s := S64x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x2048x128.size a
  hwx0_3 : ∀ i : grid0.Coords, EltTy.bits .f32 = 32 ∨ (Rect.block (s := S64x2048x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S64x2048x1.size a
  hwx0_4 : ∀ i : grid0.Coords, EltTy.bits .f32 = 32 ∨ (Rect.block (s := S64x2048x1) S1x1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S64x2048x128.size a
  hwx1_0 : ∀ i : grid1.Coords, EltTy.bits .f32 = 32 ∨ (Rect.block (s := S64x2048x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S64x2048x128.size a
  hwx1_1 : ∀ i : grid1.Coords, EltTy.bits .f32 = 32 ∨ (Rect.block (s := S64x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S64x2048x1.size a
  hwx1_2 : ∀ i : grid1.Coords, EltTy.bits .f32 = 32 ∨ (Rect.block (s := S64x2048x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S64x1x2048.size a
  hwx1_3 : ∀ i : grid1.Coords, EltTy.bits .f32 = 32 ∨ (Rect.block (s := S64x1x2048) S1x1x2048.size (cc1_transform_3 i) (hinb1_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  reducesTo_S4x16x2048x2048_S4x16x2048_d2 : S4x16x2048x2048.ReducesTo [2] S4x16x2048
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.BitsFrameA.lean ====
/-
  The first kernel call (the attention forward pass) as a pipeline region, at the buffer contents `V` the region
  is entered from: a window's block at a grid point is a rectangle of its array; the three inputs' staging buffers
  hold their blocks at every point (the key and value blocks, indexed by the batch-head coordinate alone, stay in
  place across the two query tiles); the body loads the three blocks and stores ONE whole-block value into each of
  the two outputs' buffers — the output tile `(p·v)/l` and the log-sum-exp column —, so after the body each output
  buffer is that payload of the input blocks. This is the region's proof data and its body obligation.
-/
import proofs.«104356_j50740743635464_2_alg».proof.Proof.Gen.Kernel.Launch
import proofs.«104356_j50740743635464_2_alg».proof.Proof.Gen.Kernel.Skeleton
import proofs.«104356_j50740743635464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not (unfetched, the block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rq0 : Rect S1x1024x128 := Rect.unit (s := S1x1024x128) ![0, 0, 0] S1x1024x128.size inb_S1x1024x128_S1x1024x128_0_0_0
abbrev rk0 : Rect S1x2048x128 := Rect.unit (s := S1x2048x128) ![0, 0, 0] S1x2048x128.size inb_S1x2048x128_S1x2048x128_0_0_0
abbrev rl0 : Rect S1x1024x1 := Rect.unit (s := S1x1024x1) ![0, 0, 0] S1x1024x1.size inb_S1x1024x1_S1x1024x1_0_0_0

/-- The output tile's buffer after the body: its one store, of the payload of the three input blocks. -/
def out0_3 (x0 : Vec F S1x1024x128 .f32) (x1 x2 : Vec F S1x2048x128 .f32) : Vec F S1x1024x128 .f32 :=
  View.canon [⟨rq0, k0_pay5 (View.ld x0 rq0) (View.ld x1 rk0) (View.ld x2 rk0)⟩]
/-- The log-sum-exp column's buffer after the body: its one store. -/
def out0_4 (x0 : Vec F S1x1024x128 .f32) (x1 : Vec F S1x2048x128 .f32) : Vec F S1x1024x1 .f32 :=
  View.canon [⟨rl0, k0_pay6 (View.ld x0 rq0) (View.ld x1 rk0)⟩]

theorem cover0_3 (p0 : Vec F S1x1024x128 .f32) (y : S1x1024x128.Idx) :
    ∃ pc ∈ ([⟨rq0, p0⟩] : List (View.Piece (Elt F) S1x1024x128 .f32)), y ∈ pc.1.set :=
  View.cover_of_tiled [⟨rq0, p0⟩] S1x1024x128.size (by rfl) y
theorem cover0_4 (p0 : Vec F S1x1024x1 .f32) (y : S1x1024x1.Idx) :
    ∃ pc ∈ ([⟨rl0, p0⟩] : List (View.Piece (Elt F) S1x1024x1 .f32)), y ∈ pc.1.set :=
  View.cover_of_tiled [⟨rl0, p0⟩] S1x1024x1.size (by rfl) y

set_option maxHeartbeats 2000000 in
/-- The body on whole staging memrefs, the inputs' at read contents and the outputs' at anything, runs to the continuation
    holding the inputs' as they were and each output's at its payload of the inputs'. -/
theorem sound_kernel0 (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x1024x128 .f32) (harg5 : arg5.IsWhole)
    (arg6 : Memref sig .tc .vmem S1x1024x1 .f32) (harg6 : arg6.IsWhole)
    (x0 : Vec F S1x1024x128 .f32) (x1 x2 : Vec F S1x2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1)) -∗ K ⟨⟩))
      ⊢ wp frame (wpE (defs₀ (F := F)) Variants.none c none) E (cc0__flash_kernel i arg2 harg2 arg3 harg3 arg4 harg4 arg5 harg5 arg6 harg6) K := by
  simp only [cc0__flash_kernel_eq_skeleton]; unfold cc0__flash_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The region's proof data on core `c`: the arrays as the region finds them; after the body at point `t` each input's
    buffer at its block and each output's at its payload of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsFrameB.lean ====
/-
  The second kernel call (the column sums of the attention matrix) as a pipeline region, at the buffer contents `V`
  the region is entered from. The grid is (batch·head, query tile); the kernel keeps a [1, 2048] accumulator of its own
  across the two tiles of one batch-head pair: at tile 0 it first clears it, at both tiles it adds the tile's column
  shares `∑ᵢ exp (logitᵢⱼ − lseᵢ)` into it, and at tile 1 it copies it to the output block, which the pipeline
  writes back there and only there. So a point is in one of two cases by the parity of its position; what the
  accumulator and the output's staging buffer hold after each point is a recursion over the points (`outsAt1`),
  the invariant between points carries the accumulator at that value, and the output window is idle at tile 0.
-/
import proofs.«104356_j50740743635464_2_alg».proof.Proof.Gen.Kernel.Launch
import proofs.«104356_j50740743635464_2_alg».proof.Proof.Gen.Kernel.Skeleton
import proofs.«104356_j50740743635464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, from the grid coordinates -/

/-- "This is query tile 0": the first `scf.if`'s condition. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is query tile 1", the last: the second `scf.if`'s condition. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/
abbrev VO1_3 : View sig .tc .vmem S1x1x2048 .f32 := (Memref.whole cc1_stg3_0 : Memref sig .tc .vmem S1x1x2048 .f32).view
abbrev ms1_0 (t : Fin cfg1.N) : Memref sig .tc .vmem S1x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x2048 .f32 := Memref.whole cc1_scratch0
abbrev VS1_0 : View sig .tc .vmem S1x2048 .f32 := scM1_0.view

/-- The other scoped buffers of the core (the first call's staging buffers), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region's plain invariant — every scoped buffer that is no staging buffer of this call at some contents, and the
    generator register — with the accumulator split out. -/
theorem PhiA1_open (c : Dev nD) :
    (Pipeline.ΦA spec1 c : sProp 𝕄) ⊢ iprop(otherScoped (F := F) c ∗ (∃ d, owns (c : Thread nD τ) scM1_0 fullShare d) ∗ (∃ r, prngReg c r)) := by
  unfold Pipeline.ΦA otherScoped; rw [scopedRest1_eq]; simp only [scM1_0, owns_whole]
  iintro ⟨⟨R0, R1, R2, R3, R4, R5, R6, R7, R8, R9, HS⟩, Hg⟩
  isplitl [R0 R1 R2 R3 R4 R5 R6 R7 R8 R9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [HS]; · iexact HS
  iexact Hg
theorem PhiA1_close (c : Dev nD) :
    iprop(otherScoped (F := F) c ∗ (∃ d, owns (c : Thread nD τ) scM1_0 fullShare d) ∗ (∃ r, prngReg c r)) ⊢ (Pipeline.ΦA spec1 c : sProp 𝕄) := by
  unfold Pipeline.ΦA otherScoped; rw [scopedRest1_eq]; simp only [scM1_0, owns_whole]
  iintro ⟨⟨R0, R1, R2, R3, R4, R5, R6, R7, R8, R9⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

/-! ## The body's run, case by case -/

set_option maxHeartbeats 2000000 in
/-- TILE 0. On whole memrefs — the inputs' at their contents, the output's at contents handed back untouched, the accumulator
    at anything — the body runs to the continuation holding the inputs' as they were and the accumulator with its stores
    written (the pieces are the witness the run finds). -/
noncomputable def kernelRun1_A (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i)
    (x0 : Vec F S1x1024x128 .f32) (x1 : Vec F S1x2048x128 .f32) (x2 : Vec F S1x1024x1 .f32) :
    Σ' (L3 : List (View.Piece (Elt F) S1x1x2048 .f32)), { LS0 : List (View.Piece (Elt F) S1x2048 .f32) //
      ∀ (xi3 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg2 harg2 arg3 harg3 arg4 harg4 arg5 harg5 arg6 harg6) K } := by
  refine ⟨[], ?_, fun xi3 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- TILE 1. The accumulator at what tile 0 left, the output's buffer at anything: the body leaves both with its stores written. -/
noncomputable def kernelRun1_B (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i)
    (x0 : Vec F S1x1024x128 .f32) (x1 : Vec F S1x2048x128 .f32) (x2 : Vec F S1x1024x1 .f32) (xs0 : Vec F S1x2048 .f32) :
    Σ' (L3 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg2 harg2 arg3 harg3 arg4 harg4 arg5 harg5 arg6 harg6) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Region1

end Cert.Kernel.Hand

end
-- ==== Proof.BitsFrameB2.lean ====
/-
  The second kernel call, continued: what the accumulator and the output's staging buffer hold after each grid point
  (a recursion over the points: tile 0 starts afresh, tile 1 continues from what tile 0 left), the invariant that carries
  the accumulator between points, the region's proof data and its body obligation.
-/
import proofs.«104356_j50740743635464_2_alg».proof.Proof.BitsFrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- At tile 0 the body stores nothing into the output's buffer: a placeholder nothing consults (the window is idle there). -/
def out1_A_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) : Vec F S1x1x2048 .f32 :=
  VO1_3.read (Elt F) (VO1_3.writes (Elt F) VO1_3.junk (kernelRun1_A c i arg2 harg2 arg3 harg3 arg4 harg4 arg5 harg5 arg6 harg6 hc0 hc1 x0 x1 x2).1)

/-- Tile 0's stores into the accumulator cover it. -/
theorem scover1_A_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) (y : S1x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x2048.size (by sl_kernel_rfl) y

/-- What tile 0 leaves in the accumulator. -/
def sout1_A_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) : Vec F S1x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Tile 1's store into the output's buffer covers it. -/
theorem cover1_B_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) (y : S1x1x2048.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x2048.size (by sl_kernel_rfl) y

/-- What tile 1 leaves in the output's buffer. -/
def out1_B_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) : Vec F S1x1x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Tile 1's store into the accumulator covers it. -/
theorem scover1_B_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) (y : S1x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x2048.size (by sl_kernel_rfl) y

/-- What tile 1 leaves in the accumulator. -/
def sout1_B_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output's buffer and the accumulator hold after each point -/

/-- After the body at position `n`: (the output's staging buffer, the accumulator). An even position is a tile 0 — afresh
    from the point's input blocks —, an odd one a tile 1, continuing from what the position before left in the accumulator. -/
def outsAt1 (c : Dev nD) : (n : ℕ) → n < cfg1.N → Vec F S1x1x2048 .f32 × Vec F S1x2048 .f32
  | 0, hn =>
    have h0 : (0 : ℕ) % 2 = 0 := rfl
    have h1 : ¬ (0 : ℕ) % 2 = 1 := by decide
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      have h1 : ¬ (n + 1) % 2 = 1 := by omega
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      have h1 : (n + 1) % 2 = 1 := by omega
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)

/-- `outsAt1` at a tile 0. -/
theorem outsAt1_A (c : Dev nD) (t : Fin cfg1.N) (h0 : t.val % 2 = 0) (h1 : ¬ t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a tile 1: over what the position before left. -/
theorem outsAt1_B (c : Dev nD) (t : Fin cfg1.N) (h0 : ¬ t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The invariant before position `n`: before the first point the plain one (every scoped buffer at anything); afterwards the
    accumulator at what the point before left, the other scoped buffers at anything, the generator register at some state. -/
def PhiS (c : Dev nD) : (n : ℕ) → n ≤ cfg1.N → sProp 𝕄
  | 0, _ => Pipeline.ΦA spec1 c
  | n + 1, hn => iprop(otherScoped (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(otherScoped (F := F) c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(otherScoped (F := F) c ∗ owns (c : Thread nD τ) scM1_0 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says which case the point is
    in; the invariant hands the body the accumulator (at anything before the first point, else at what the point before left)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬ t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hopen : (dat1 V c).Φ t.castSucc ⊢ iprop(otherScoped (F := F) c ∗ (∃ d, owns (c : Thread nD τ) scM1_0 fullShare d) ∗ (∃ r, prngReg c r)) := by
      by_cases hz : t.val = 0
      · rw [PhiS_castSucc V c t, PhiS_zero V c _ _ hz]; exact PhiA1_open c
      · rw [PhiS_castSucc V c t, PhiS_pos V c _ _ hz]
        iintro ⟨HR, HS0, Hg⟩
        isplitl [HR]; · iexact HR
        isplitl [HS0]; · iexists _; iexact HS0
        iexact Hg
    iintro ⟨HΦ, Ho, ⟨%d0, H0⟩, ⟨%d1, H1⟩, ⟨%d2, H2⟩, ⟨%d3, H3⟩⟩
    ihave HΦ' := hopen $$ HΦ
    icases HΦ' with ⟨HR, HS0, Hg⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS_castSucc V c t, PhiS_pos V c _ _ hz]
    iintro ⟨⟨HR, HS0, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht]
  have hweak : iprop(otherScoped (F := F) c ∗ owns (c : Thread nD τ) scM1_0 fullShare ((outsAt1 V c ((Fin.last cfg1.N).val - 1) (by omega)).2) ∗ (∃ r, prngReg c r))
      ⊢ iprop(otherScoped (F := F) c ∗ (∃ d, owns (c : Thread nD τ) scM1_0 fullShare d) ∗ (∃ r, prngReg c r)) := by
    iintro ⟨HR, HS0, Hg⟩
    isplitl [HR]; · iexact HR
    isplitl [HS0]; · iexists _; iexact HS0
    iexact Hg
  exact hweak.trans (PhiA1_close c)

end Region1

end Cert.Kernel.Hand

end
-- ==== Proof.BitsRunK.lean ====
/-
  The whole program as a run: the buffer contents at each boundary of @main (the three argument reshapes, the first kernel
  call, the second, the two result reshapes) as a fold from the launch memory, each kernel call a pipeline region entered
  from the contents before it and left at the contents after it (its windows' arrays at what its write-backs leave, every
  other buffer as entered), and the launch: every weakly fair execution terminates, nothing faulting, and every unscoped
  buffer ends at the last boundary's contents.
-/
import proofs.«104356_j50740743635464_2_alg».proof.Proof.BitsFrameA
import proofs.«104356_j50740743635464_2_alg».proof.Proof.BitsFrameB2
import proofs.«104356_j50740743635464_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the argument reshapes (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the result reshapes: the end of @main. -/
abbrev W4 : Dev nD → Valuation τ sig (Elt F) := fun c => StableHlo.after hostOps2 (W3 m ρ c)

/-- A buffer no reshape writes and no call stages reaches the end as launched. -/
theorem W4_untouched (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := StableHlo.after_of_writes_sub hostOps2 _ hostOps2_writes h2
    _ = W2 m ρ c (Proc.devRef .tc b) := W3_of_ne m ρ c b hs1
    _ = W1 m ρ c (Proc.devRef .tc b) := W2_of_ne m ρ c b hs0
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)

/-! ## The proof data family and the thread state -/

abbrev adm : (p : Fin 2) → (pcfgs (F := F) p).Adm := fun p => (cfgs p).toPCfg_adm
/-- Each call's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `W2`, left at `W3`; its invariant carries the accumulator between points. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine BI.Entails.trans (hout1 (V2 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.FrameA.lean ====
/-
  The first kernel call (the attention forward pass) as a pipeline region, at the buffer contents `V` the region
  is entered from: a window's block at a grid point is a rectangle of its array; the three inputs' staging buffers
  hold their blocks at every point (the key and value blocks, indexed by the batch-head coordinate alone, stay in
  place across the two query tiles); the body loads the three blocks and stores ONE whole-block value into each of
  the two outputs' buffers — the output tile `(p·v)/l` and the log-sum-exp column —, so after the body each output
  buffer is that payload of the input blocks. This is the region's proof data and its body obligation.
-/
import proofs.«104356_j50740743635464_2_alg».proof.Proof.Gen.KernelIdeal.Launch
import proofs.«104356_j50740743635464_2_alg».proof.Proof.Gen.KernelIdeal.Skeleton
import proofs.«104356_j50740743635464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, fetched there or not (unfetched, the block index has
    not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rq0 : Rect S1x1024x128 := Rect.unit (s := S1x1024x128) ![0, 0, 0] S1x1024x128.size inb_S1x1024x128_S1x1024x128_0_0_0
abbrev rk0 : Rect S1x2048x128 := Rect.unit (s := S1x2048x128) ![0, 0, 0] S1x2048x128.size inb_S1x2048x128_S1x2048x128_0_0_0
abbrev rl0 : Rect S1x1024x1 := Rect.unit (s := S1x1024x1) ![0, 0, 0] S1x1024x1.size inb_S1x1024x1_S1x1024x1_0_0_0

/-- The output tile's buffer after the body: its one store, of the payload of the three input blocks. -/
def out0_3 (x0 : Vec F S1x1024x128 .f32) (x1 x2 : Vec F S1x2048x128 .f32) : Vec F S1x1024x128 .f32 :=
  View.canon [⟨rq0, k0_pay5 (View.ld x0 rq0) (View.ld x1 rk0) (View.ld x2 rk0)⟩]
/-- The log-sum-exp column's buffer after the body: its one store. -/
def out0_4 (x0 : Vec F S1x1024x128 .f32) (x1 : Vec F S1x2048x128 .f32) : Vec F S1x1024x1 .f32 :=
  View.canon [⟨rl0, k0_pay6 (View.ld x0 rq0) (View.ld x1 rk0)⟩]

theorem cover0_3 (p0 : Vec F S1x1024x128 .f32) (y : S1x1024x128.Idx) :
    ∃ pc ∈ ([⟨rq0, p0⟩] : List (View.Piece (Elt F) S1x1024x128 .f32)), y ∈ pc.1.set :=
  View.cover_of_tiled [⟨rq0, p0⟩] S1x1024x128.size (by rfl) y
theorem cover0_4 (p0 : Vec F S1x1024x1 .f32) (y : S1x1024x1.Idx) :
    ∃ pc ∈ ([⟨rl0, p0⟩] : List (View.Piece (Elt F) S1x1024x1 .f32)), y ∈ pc.1.set :=
  View.cover_of_tiled [⟨rl0, p0⟩] S1x1024x1.size (by rfl) y

set_option maxHeartbeats 2000000 in
/-- The body on whole staging memrefs, the inputs' at read contents and the outputs' at anything, runs to the continuation
    holding the inputs' as they were and each output's at its payload of the inputs'. -/
theorem sound_kernel0 (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x1024x128 .f32) (harg5 : arg5.IsWhole)
    (arg6 : Memref sig .tc .vmem S1x1024x1 .f32) (harg6 : arg6.IsWhole)
    (x0 : Vec F S1x1024x128 .f32) (x1 x2 : Vec F S1x2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1)) -∗ K ⟨⟩))
      ⊢ wp frame (wpE (defs₀ (F := F)) Variants.none c none) E (cc0__flash_kernel i arg2 harg2 arg3 harg3 arg4 harg4 arg5 harg5 arg6 harg6) K := by
  simp only [cc0__flash_kernel_eq_skeleton]; unfold cc0__flash_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The region's proof data on core `c`: the arrays as the region finds them; after the body at point `t` each input's
    buffer at its block and each output's at its payload of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameB.lean ====
/-
  The second kernel call (the column sums of the attention matrix) as a pipeline region, at the buffer contents `V`
  the region is entered from. The grid is (batch·head, query tile); the kernel keeps a [1, 2048] accumulator of its own
  across the two tiles of one batch-head pair: at tile 0 it first clears it, at both tiles it adds the tile's column
  shares `∑ᵢ exp (logitᵢⱼ − lseᵢ)` into it, and at tile 1 it copies it to the output block, which the pipeline
  writes back there and only there. So a point is in one of two cases by the parity of its position; what the
  accumulator and the output's staging buffer hold after each point is a recursion over the points (`outsAt1`),
  the invariant between points carries the accumulator at that value, and the output window is idle at tile 0.
-/
import proofs.«104356_j50740743635464_2_alg».proof.Proof.Gen.KernelIdeal.Launch
import proofs.«104356_j50740743635464_2_alg».proof.Proof.Gen.KernelIdeal.Skeleton
import proofs.«104356_j50740743635464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, from the grid coordinates -/

/-- "This is query tile 0": the first `scf.if`'s condition. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is query tile 1", the last: the second `scf.if`'s condition. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-! ## The memrefs the body is called with -/
abbrev VO1_3 : View sig .tc .vmem S1x1x2048 .f32 := (Memref.whole cc1_stg3_0 : Memref sig .tc .vmem S1x1x2048 .f32).view
abbrev ms1_0 (t : Fin cfg1.N) : Memref sig .tc .vmem S1x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1x2048 .f32 := Memref.whole cc1_scratch0
abbrev VS1_0 : View sig .tc .vmem S1x2048 .f32 := scM1_0.view

/-- The other scoped buffers of the core (the first call's staging buffers), each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The region's plain invariant — every scoped buffer that is no staging buffer of this call at some contents, and the
    generator register — with the accumulator split out. -/
theorem PhiA1_open (c : Dev nD) :
    (Pipeline.ΦA spec1 c : sProp 𝕄) ⊢ iprop(otherScoped (F := F) c ∗ (∃ d, owns (c : Thread nD τ) scM1_0 fullShare d) ∗ (∃ r, prngReg c r)) := by
  unfold Pipeline.ΦA otherScoped; rw [scopedRest1_eq]; simp only [scM1_0, owns_whole]
  iintro ⟨⟨R0, R1, R2, R3, R4, R5, R6, R7, R8, R9, HS⟩, Hg⟩
  isplitl [R0 R1 R2 R3 R4 R5 R6 R7 R8 R9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [HS]; · iexact HS
  iexact Hg
theorem PhiA1_close (c : Dev nD) :
    iprop(otherScoped (F := F) c ∗ (∃ d, owns (c : Thread nD τ) scM1_0 fullShare d) ∗ (∃ r, prngReg c r)) ⊢ (Pipeline.ΦA spec1 c : sProp 𝕄) := by
  unfold Pipeline.ΦA otherScoped; rw [scopedRest1_eq]; simp only [scM1_0, owns_whole]
  iintro ⟨⟨R0, R1, R2, R3, R4, R5, R6, R7, R8, R9⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

/-! ## The body's run, case by case -/

set_option maxHeartbeats 2000000 in
/-- TILE 0. On whole memrefs — the inputs' at their contents, the output's at contents handed back untouched, the accumulator
    at anything — the body runs to the continuation holding the inputs' as they were and the accumulator with its stores
    written (the pieces are the witness the run finds). -/
noncomputable def kernelRun1_A (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i)
    (x0 : Vec F S1x1024x128 .f32) (x1 : Vec F S1x2048x128 .f32) (x2 : Vec F S1x1024x1 .f32) :
    Σ' (L3 : List (View.Piece (Elt F) S1x1x2048 .f32)), { LS0 : List (View.Piece (Elt F) S1x2048 .f32) //
      ∀ (xi3 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg2 harg2 arg3 harg3 arg4 harg4 arg5 harg5 arg6 harg6) K } := by
  refine ⟨[], ?_, fun xi3 E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- TILE 1. The accumulator at what tile 0 left, the output's buffer at anything: the body leaves both with its stores written. -/
noncomputable def kernelRun1_B (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i)
    (x0 : Vec F S1x1024x128 .f32) (x1 : Vec F S1x2048x128 .f32) (x2 : Vec F S1x1024x1 .f32) (xs0 : Vec F S1x2048 .f32) :
    Σ' (L3 : List (View.Piece (Elt F) S1x1x2048 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg2 harg2 arg3 harg3 arg4 harg4 arg5 harg5 arg6 harg6) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Region1

end Cert.KernelIdeal.Hand

end
-- ==== Proof.FrameB2.lean ====
/-
  The second kernel call, continued: what the accumulator and the output's staging buffer hold after each grid point
  (a recursion over the points: tile 0 starts afresh, tile 1 continues from what tile 0 left), the invariant that carries
  the accumulator between points, the region's proof data and its body obligation.
-/
import proofs.«104356_j50740743635464_2_alg».proof.Proof.FrameB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- At tile 0 the body stores nothing into the output's buffer: a placeholder nothing consults (the window is idle there). -/
def out1_A_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) : Vec F S1x1x2048 .f32 :=
  VO1_3.read (Elt F) (VO1_3.writes (Elt F) VO1_3.junk (kernelRun1_A c i arg2 harg2 arg3 harg3 arg4 harg4 arg5 harg5 arg6 harg6 hc0 hc1 x0 x1 x2).1)

/-- Tile 0's stores into the accumulator cover it. -/
theorem scover1_A_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) (y : S1x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1x2048.size (by sl_kernel_rfl) y

/-- What tile 0 leaves in the accumulator. -/
def sout1_A_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : cond1_0 i) (hc1 : ¬cond1_1 i) (x0 : Vec F S1x1024x128 .f32) (x1 : Vec F S1x2048x128 .f32) (x2 : Vec F S1x1024x1 .f32) : Vec F S1x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Tile 1's store into the output's buffer covers it. -/
theorem cover1_B_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) (y : S1x1x2048.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S1x1x2048.size (by sl_kernel_rfl) y

/-- What tile 1 leaves in the output's buffer. -/
def out1_B_3 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) : Vec F S1x1x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Tile 1's store into the accumulator covers it. -/
theorem scover1_B_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) (y : S1x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1x2048.size (by sl_kernel_rfl) y

/-- What tile 1 leaves in the accumulator. -/
def sout1_B_0 (c : Dev nD) (i : grid1.Coords) (arg2 : Memref sig .tc .vmem S1x1024x128 .f32) (harg2 : arg2.IsWhole) (arg3 : Memref sig .tc .vmem S1x2048x128 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x2048 .f32) (harg6 : arg6.IsWhole) (hc0 : ¬cond1_0 i) (hc1 : cond1_1 i) (x0 : Vec F S1x1024x128 .f32) (x1 : Vec F S1x2048x128 .f32) (x2 : Vec F S1x1024x1 .f32) (xs0 : Vec F S1x2048 .f32) : Vec F S1x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-! ## What the output's buffer and the accumulator hold after each point -/

/-- After the body at position `n`: (the output's staging buffer, the accumulator). An even position is a tile 0 — afresh
    from the point's input blocks —, an odd one a tile 1, continuing from what the position before left in the accumulator. -/
def outsAt1 (c : Dev nD) : (n : ℕ) → n < cfg1.N → Vec F S1x1x2048 .f32 × Vec F S1x2048 .f32
  | 0, hn =>
    have h0 : (0 : ℕ) % 2 = 0 := rfl
    have h1 : ¬ (0 : ℕ) % 2 = 1 := by decide
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      have h1 : ¬ (n + 1) % 2 = 1 := by omega
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
       sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      have h1 : (n + 1) % 2 = 1 := by omega
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)

/-- `outsAt1` at a tile 0. -/
theorem outsAt1_A (c : Dev nD) (t : Fin cfg1.N) (h0 : t.val % 2 = 0) (h1 : ¬ t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a tile 1: over what the position before left. -/
theorem outsAt1_B (c : Dev nD) (t : Fin cfg1.N) (h0 : ¬ t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-- The invariant before position `n`: before the first point the plain one (every scoped buffer at anything); afterwards the
    accumulator at what the point before left, the other scoped buffers at anything, the generator register at some state. -/
def PhiS (c : Dev nD) : (n : ℕ) → n ≤ cfg1.N → sProp 𝕄
  | 0, _ => Pipeline.ΦA spec1 c
  | n + 1, hn => iprop(otherScoped (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(otherScoped (F := F) c ∗ owns (c : Thread nD τ) scM1_0 fullShare ((outsAt1 V c n hn).2) ∗ (∃ r, prngReg c r)) := rfl
theorem PhiS_pos (c : Dev nD) (n : ℕ) (h : n ≤ cfg1.N) (hz : n ≠ 0) :
    PhiS V c n h = iprop(otherScoped (F := F) c ∗ owns (c : Thread nD τ) scM1_0 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says which case the point is
    in; the invariant hands the body the accumulator (at anything before the first point, else at what the point before left)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬ t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hopen : (dat1 V c).Φ t.castSucc ⊢ iprop(otherScoped (F := F) c ∗ (∃ d, owns (c : Thread nD τ) scM1_0 fullShare d) ∗ (∃ r, prngReg c r)) := by
      by_cases hz : t.val = 0
      · rw [PhiS_castSucc V c t, PhiS_zero V c _ _ hz]; exact PhiA1_open c
      · rw [PhiS_castSucc V c t, PhiS_pos V c _ _ hz]
        iintro ⟨HR, HS0, Hg⟩
        isplitl [HR]; · iexact HR
        isplitl [HS0]; · iexists _; iexact HS0
        iexact Hg
    iintro ⟨HΦ, Ho, ⟨%d0, H0⟩, ⟨%d1, H1⟩, ⟨%d2, H2⟩, ⟨%d3, H3⟩⟩
    ihave HΦ' := hopen $$ HΦ
    icases HΦ' with ⟨HR, HS0, Hg⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS_castSucc V c t, PhiS_pos V c _ _ hz]
    iintro ⟨⟨HR, HS0, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS V c (Fin.last cfg1.N).val (Nat.le_of_lt_succ (Fin.last cfg1.N).isLt) from rfl, PhiS_pos V c _ _ ht]
  have hweak : iprop(otherScoped (F := F) c ∗ owns (c : Thread nD τ) scM1_0 fullShare ((outsAt1 V c ((Fin.last cfg1.N).val - 1) (by omega)).2) ∗ (∃ r, prngReg c r))
      ⊢ iprop(otherScoped (F := F) c ∗ (∃ d, owns (c : Thread nD τ) scM1_0 fullShare d) ∗ (∃ r, prngReg c r)) := by
    iintro ⟨HR, HS0, Hg⟩
    isplitl [HR]; · iexact HR
    isplitl [HS0]; · iexists _; iexact HS0
    iexact Hg
  exact hweak.trans (PhiA1_close c)

end Region1

end Cert.KernelIdeal.Hand

end
-- ==== Proof.RunK.lean ====
/-
  The whole program as a run: the buffer contents at each boundary of @main (the three argument reshapes, the first kernel
  call, the second, the two result reshapes) as a fold from the launch memory, each kernel call a pipeline region entered
  from the contents before it and left at the contents after it (its windows' arrays at what its write-backs leave, every
  other buffer as entered), and the launch: every weakly fair execution terminates, nothing faulting, and every unscoped
  buffer ends at the last boundary's contents.
-/
import proofs.«104356_j50740743635464_2_alg».proof.Proof.FrameA
import proofs.«104356_j50740743635464_2_alg».proof.Proof.FrameB2
import proofs.«104356_j50740743635464_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the argument reshapes (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the result reshapes: the end of @main. -/
abbrev W4 : Dev nD → Valuation τ sig (Elt F) := fun c => StableHlo.after hostOps2 (W3 m ρ c)

/-- A buffer no reshape writes and no call stages reaches the end as launched. -/
theorem W4_untouched (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := StableHlo.after_of_writes_sub hostOps2 _ hostOps2_writes h2
    _ = W2 m ρ c (Proc.devRef .tc b) := W3_of_ne m ρ c b hs1
    _ = W1 m ρ c (Proc.devRef .tc b) := W2_of_ne m ρ c b hs0
    _ = W0 m ρ c (Proc.devRef .tc b) := StableHlo.after_of_writes_sub hostOps0 _ hostOps0_writes h0
    _ = m ((c : Thread nD τ).loc b) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)

/-! ## The proof data family and the thread state -/

abbrev adm : (p : Fin 2) → (pcfgs (F := F) p).Adm := fun p => (cfgs p).toPCfg_adm
/-- Each call's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `W2`, left at `W3`; its invariant carries the accumulator between points. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine BI.Entails.trans (hout1 (V2 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.AttnFinite.lean ====
/-
  From the precondition to real numbers: a printed predicate that states `|x| < +∞` of every entry of the three
  argument arrays, and is all ones, makes every entry the coercion of a real number.
-/
import proofs.«104356_j50740743635464_2_alg».proof.Defs
import proofs.«104356_j50740743635464_2_alg».proof.Proof.Gen.Pre_finite_inputs
import Idealize.ShloMosaic.Lib.ReduceAll
import Idealize.ShloMosaic.Lib.ValueIdx

noncomputable section

namespace Cert.Attn

open Idealize.ShloMosaic

/-- The result of a reduction over every axis has one index. -/
instance : Subsingleton Cert.Pre_finite_inputs.S_.Idx := ⟨fun a b => funext fun d => d.elim0⟩

/-- An extended real whose absolute value compares below `+∞` is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- One `jnp.all (|x| < +∞)` that is one: every entry of `x` is a real number. -/
theorem real_of_all [Cert.Pre_finite_inputs.Facts] (x : FVec Ideal Cert.Pre_finite_inputs.S4x16x2048x128 .f32)
    (h : Host.reduce IntOp.andi
          (cmpf .olt (Host.absf x)
            (broadcastInDim Cert.Pre_finite_inputs.S4x16x2048x128 ![] Cert.Pre_finite_inputs.Facts.bcast_S_S4x16x2048x128
              (constant (F := Ideal) Cert.Pre_finite_inputs.S_ .f32 0x7F800000#32)))
          (constantI Cert.Pre_finite_inputs.S_ 1 1#1)
          Cert.Pre_finite_inputs.Facts.reducesTo_S4x16x2048x128_S_d0_1_2_3 Cert.Pre_finite_inputs.Facts.h_S_ ValueIdx.ix0 = 1#1)
    (i : Cert.Pre_finite_inputs.S4x16x2048x128.Idx) : ∃ r : ℝ, x i = ((r : ℝ) : EReal) :=
  real_of_abs_lt_inf (x i) (Host.reduce_andi_all _ _ _ _ ValueIdx.ix0 h i)

/-- The precondition gives real witnesses for the three argument arrays. -/
theorem real_of_pre [Cert.Pre_finite_inputs.Facts]
    (x0 x1 x2 : FVec Ideal Cert.Pre_finite_inputs.S4x16x2048x128 .f32)
    (h : Cert.Pre_finite_inputs.fn (F := Ideal) x0 x1 x2 = fun _ => 1#1) :
    ∃ Qr Kr Vr : Cert.Pre_finite_inputs.S4x16x2048x128.Idx → ℝ,
      x0 = (fun i => ((Qr i : ℝ) : EReal)) ∧ x1 = (fun i => ((Kr i : ℝ) : EReal)) ∧ x2 = (fun i => ((Vr i : ℝ) : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  choose Qr hQ using real_of_all x0 h0'
  choose Kr hK using real_of_all x1 h1
  choose Vr hV using real_of_all x2 h2
  exact ⟨Qr, Kr, Vr, funext hQ, funext hK, funext hV⟩

end Cert.Attn

end
-- ==== Proof.Glue.lean ====
/-
  The host operations around the two kernel calls, read at an index, and the arithmetic of the grid.

  The program views each argument array of shape [4, 16, 2048, 128] as [64, 2048, 128] (the same elements in
  row-major order), and views the two results back: [64, 2048, 128] as [4, 16, 2048, 128] and [64, 1, 2048] as
  [4, 16, 2048]. Row-major position is preserved, so batch `b` and head `h` become the single leading coordinate
  `b * 16 + h` (`bh`), the remaining coordinates unchanged (and the unit axis of the score array at `0`).

  The grid of both kernel calls is [64, 2], run row-major: point `t` has coordinates `(t / 2, t % 2)`, the
  (batch, head) pair and the query tile. The block index maps at point `t` follow.
-/
import proofs.«104356_j50740743635464_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

noncomputable section

namespace Cert.Attn.Glue

open Cert.KernelIdeal Cert.KernelIdeal.Gen Idealize.ShloMosaic Idealize.ShloMosaic.ValueIdx

/-- The leading coordinate of batch `b`, head `h` once the two axes are merged: `b * 16 + h`. -/
def bh (b : Fin 4) (h : Fin 16) : Fin 64 := ⟨b.val * 16 + h.val, by omega⟩

@[simp] theorem bh_val (b : Fin 4) (h : Fin 16) : (bh b h).val = b.val * 16 + h.val := rfl

/-- Every leading coordinate of the merged axis is `b * 16 + h` for its quotient and remainder by 16. -/
theorem eq_bh (g : Fin 64) : g = bh ⟨g.val / 16, by omega⟩ ⟨g.val % 16, by omega⟩ :=
  Fin.ext (by show g.val = g.val / 16 * 16 + g.val % 16; omega)

/-- Distinct (batch, head) pairs have distinct merged coordinates. -/
theorem bh_inj {b b' : Fin 4} {h h' : Fin 16} (e : bh b h = bh b' h') : b = b' ∧ h = h' := by
  have e' : b.val * 16 + h.val = b'.val * 16 + h'.val := congrArg Fin.val e
  exact ⟨Fin.ext (by omega), Fin.ext (by omega)⟩

/-! ## The three views, read at an index -/

section Views
variable {α : Type}

/-- [4, 16, 2048, 128] viewed as [64, 2048, 128]: entry `(b * 16 + h, i, d)` is entry `(b, h, i, d)`. -/
theorem reshape_in (A : S4x16x2048x128.Idx → α) (hc : S4x16x2048x128.ShapeCasts S64x2048x128)
    (b : Fin 4) (h : Fin 16) (i : Fin 2048) (d : Fin 128) :
    shapeCast S64x2048x128 A hc (ix3 (bh b h) i d) = A (ix4 b h i d) :=
  shapeCast_apply A hc _ _ (by
    rw [Shape.rowMajor_val_four, Shape.rowMajor_val_three]
    rfl)

/-- [64, 2048, 128] viewed as [4, 16, 2048, 128]: entry `(b, h, i, d)` is entry `(b * 16 + h, i, d)`. -/
theorem reshape_out (A : S64x2048x128.Idx → α) (hc : S64x2048x128.ShapeCasts S4x16x2048x128)
    (b : Fin 4) (h : Fin 16) (i : Fin 2048) (d : Fin 128) :
    shapeCast S4x16x2048x128 A hc (ix4 b h i d) = A (ix3 (bh b h) i d) :=
  shapeCast_apply A hc _ _ (by
    rw [Shape.rowMajor_val_four, Shape.rowMajor_val_three]
    rfl)

/-- [64, 1, 2048] viewed as [4, 16, 2048]: entry `(b, h, j)` is entry `(b * 16 + h, 0, j)`. -/
theorem reshape_score (A : S64x1x2048.Idx → α) (hc : S64x1x2048.ShapeCasts S4x16x2048)
    (b : Fin 4) (h : Fin 16) (j : Fin 2048) :
    shapeCast S4x16x2048 A hc (ix3 b h j) = A (ix3 (bh b h) (0 : Fin 1) j) :=
  shapeCast_apply A hc _ _ (by
    rw [Shape.rowMajor_val_three, Shape.rowMajor_val_three]
    show ((b.val * 16 + h.val) * 1 + 0) * 2048 + j.val = (b.val * 16 + h.val) * 2048 + j.val
    omega)

end Views

/-! ## The host operations before and after the kernel calls -/

section Host
variable {F : FTy → Type}

/-- After the three leading views, `main_v0` holds the first argument viewed as [64, 2048, 128]. -/
theorem after_hostOps0_v0 (V : Valuation τ sig (Elt F)) :
    StableHlo.after (hostOps0 (F := F)) V (Proc.devRef .tc main_v0)
      = shapeCast S64x2048x128 (V (Proc.devRef .tc main_arg0)) Gen.shapeCasts_S4x16x2048x128_S64x2048x128 := by
  after_results; rfl

/-- `main_v1` holds the second argument viewed as [64, 2048, 128]. -/
theorem after_hostOps0_v1 (V : Valuation τ sig (Elt F)) :
    StableHlo.after (hostOps0 (F := F)) V (Proc.devRef .tc main_v1)
      = shapeCast S64x2048x128 (V (Proc.devRef .tc main_arg1)) Gen.shapeCasts_S4x16x2048x128_S64x2048x128 := by
  after_results; rfl

/-- `main_v2` holds the third argument viewed as [64, 2048, 128]. -/
theorem after_hostOps0_v2 (V : Valuation τ sig (Elt F)) :
    StableHlo.after (hostOps0 (F := F)) V (Proc.devRef .tc main_v2)
      = shapeCast S64x2048x128 (V (Proc.devRef .tc main_arg2)) Gen.shapeCasts_S4x16x2048x128_S64x2048x128 := by
  after_results; rfl

/-- After the two trailing views, `main_v5` holds the first kernel's output viewed as [4, 16, 2048, 128]. -/
theorem after_hostOps2_v5 (V : Valuation τ sig (Elt F)) :
    StableHlo.after (hostOps2 (F := F)) V (Proc.devRef .tc main_v5)
      = shapeCast S4x16x2048x128 (V (Proc.devRef .tc main_v3_0)) Gen.shapeCasts_S64x2048x128_S4x16x2048x128 := by
  after_results; rfl

/-- `main_v6` holds the second kernel's output viewed as [4, 16, 2048]. -/
theorem after_hostOps2_v6 (V : Valuation τ sig (Elt F)) :
    StableHlo.after (hostOps2 (F := F)) V (Proc.devRef .tc main_v6)
      = shapeCast S4x16x2048 (V (Proc.devRef .tc main_v4)) Gen.shapeCasts_S64x1x2048_S4x16x2048 := by
  after_results; rfl

/-! ### The same, read at an index -/

theorem after_hostOps0_v0_apply (V : Valuation τ sig (Elt F)) (b : Fin 4) (h : Fin 16) (i : Fin 2048) (d : Fin 128) :
    (StableHlo.after (hostOps0 (F := F)) V (Proc.devRef .tc main_v0) : S64x2048x128.Idx → Elt F .f32) (ix3 (bh b h) i d)
      = (V (Proc.devRef .tc main_arg0) : S4x16x2048x128.Idx → Elt F .f32) (ix4 b h i d) := by
  rw [after_hostOps0_v0, reshape_in]

theorem after_hostOps0_v1_apply (V : Valuation τ sig (Elt F)) (b : Fin 4) (h : Fin 16) (i : Fin 2048) (d : Fin 128) :
    (StableHlo.after (hostOps0 (F := F)) V (Proc.devRef .tc main_v1) : S64x2048x128.Idx → Elt F .f32) (ix3 (bh b h) i d)
      = (V (Proc.devRef .tc main_arg1) : S4x16x2048x128.Idx → Elt F .f32) (ix4 b h i d) := by
  rw [after_hostOps0_v1, reshape_in]

theorem after_hostOps0_v2_apply (V : Valuation τ sig (Elt F)) (b : Fin 4) (h : Fin 16) (i : Fin 2048) (d : Fin 128) :
    (StableHlo.after (hostOps0 (F := F)) V (Proc.devRef .tc main_v2) : S64x2048x128.Idx → Elt F .f32) (ix3 (bh b h) i d)
      = (V (Proc.devRef .tc main_arg2) : S4x16x2048x128.Idx → Elt F .f32) (ix4 b h i d) := by
  rw [after_hostOps0_v2, reshape_in]

theorem after_hostOps2_v5_apply (V : Valuation τ sig (Elt F)) (b : Fin 4) (h : Fin 16) (i : Fin 2048) (d : Fin 128) :
    (StableHlo.after (hostOps2 (F := F)) V (Proc.devRef .tc main_v5) : S4x16x2048x128.Idx → Elt F .f32) (ix4 b h i d)
      = (V (Proc.devRef .tc main_v3_0) : S64x2048x128.Idx → Elt F .f32) (ix3 (bh b h) i d) := by
  rw [after_hostOps2_v5, reshape_out]

theorem after_hostOps2_v6_apply (V : Valuation τ sig (Elt F)) (b : Fin 4) (h : Fin 16) (j : Fin 2048) :
    (StableHlo.after (hostOps2 (F := F)) V (Proc.devRef .tc main_v6) : S4x16x2048.Idx → Elt F .f32) (ix3 b h j)
      = (V (Proc.devRef .tc main_v4) : S64x1x2048.Idx → Elt F .f32) (ix3 (bh b h) (0 : Fin 1) j) := by
  rw [after_hostOps2_v6, reshape_score]

end Host

/-! ## The grid and the block index maps

Both kernel calls run over the grid [64, 2] in row-major order: point `t` is (batch, head) pair `t / 2`, query tile
`t % 2`. Each printed index map, decided once over the 128 points. -/

section Grid

/-- The coordinates of point `t` of the first call's grid. -/
theorem coords0 : ∀ t : Fin cfg0.N, (grid0.coords t 0).val = t.val / 2 ∧ (grid0.coords t 1).val = t.val % 2 :=
  (by decide +kernel : ∀ t : Fin grid0.N, _)

/-- The coordinates of point `t` of the second call's grid. -/
theorem coords1 : ∀ t : Fin cfg1.N, (grid1.coords t 0).val = t.val / 2 ∧ (grid1.coords t 1).val = t.val % 2 :=
  (by decide +kernel : ∀ t : Fin grid1.N, _)

/-- First call, window 0 (the queries, blocks [1, 1024, 128]): block `(t / 2, t % 2, 0)`. -/
theorem idx0_0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- First call, window 1 (the keys, blocks [1, 2048, 128]): block `(t / 2, 0, 0)`. -/
theorem idx0_1 : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- First call, window 2 (the values, blocks [1, 2048, 128]): block `(t / 2, 0, 0)`. -/
theorem idx0_2 : ∀ t : Fin cfg0.N, win0_2.index t (0 : Fin 3) = t.val / 2 ∧ win0_2.index t (1 : Fin 3) = 0
    ∧ win0_2.index t (2 : Fin 3) = 0 :=
  (by decide +kernel : ∀ t : Fin grid0.N, _)

/-- First call, window 3 (the output, blocks [1, 1024, 128]): block `(t / 2, t % 2, 0)`. -/
theorem idx0_3 : ∀ t : Fin cfg0.N, win0_3.index t (0 : Fin 3) = t.val / 2 ∧ win0_3.index t (1 : Fin 3) = t.val % 2
    ∧ win0_3.index t (2 : Fin 3) = 0 :=
  (by decide +kernel : ∀ t : Fin grid0.N, _)

/-- First call, window 4 (the log-sum-exp column, blocks [1, 1024, 1]): block `(t / 2, t % 2, 0)`. -/
theorem idx0_4 : ∀ t : Fin cfg0.N, win0_4.index t (0 : Fin 3) = t.val / 2 ∧ win0_4.index t (1 : Fin 3) = t.val % 2
    ∧ win0_4.index t (2 : Fin 3) = 0 :=
  (by decide +kernel : ∀ t : Fin grid0.N, _)

/-- Second call, window 0 (the queries, blocks [1, 1024, 128]): block `(t / 2, t % 2, 0)`. -/
theorem idx1_0 : ∀ t : Fin cfg1.N, win1_0.index t (0 : Fin 3) = t.val / 2 ∧ win1_0.index t (1 : Fin 3) = t.val % 2
    ∧ win1_0.index t (2 : Fin 3) = 0 :=
  (by decide +kernel : ∀ t : Fin grid1.N, _)

/-- Second call, window 1 (the keys, blocks [1, 2048, 128]): block `(t / 2, 0, 0)`. -/
theorem idx1_1 : ∀ t : Fin cfg1.N, win1_1.index t (0 : Fin 3) = t.val / 2 ∧ win1_1.index t (1 : Fin 3) = 0
    ∧ win1_1.index t (2 : Fin 3) = 0 :=
  (by decide +kernel : ∀ t : Fin grid1.N, _)

/-- Second call, window 2 (the log-sum-exp column, blocks [1, 1024, 1]): block `(t / 2, t % 2, 0)`. -/
theorem idx1_2 : ∀ t : Fin cfg1.N, win1_2.index t (0 : Fin 3) = t.val / 2 ∧ win1_2.index t (1 : Fin 3) = t.val % 2
    ∧ win1_2.index t (2 : Fin 3) = 0 :=
  (by decide +kernel : ∀ t : Fin grid1.N, _)

/-- Second call, window 3 (the column sums, blocks [1, 1, 2048]): block `(t / 2, 0, 0)`. -/
theorem idx1_3 : ∀ t : Fin cfg1.N, win1_3.index t (0 : Fin 3) = t.val / 2 ∧ win1_3.index t (1 : Fin 3) = 0
    ∧ win1_3.index t (2 : Fin 3) = 0 :=
  (by decide +kernel : ∀ t : Fin grid1.N, _)

end Grid

end Cert.Attn.Glue

end
-- ==== Proof.AttnSpec.lean ====
/-
  The mathematics both programs compute, over the reals, for ONE (batch, head) pair: scaled dot-product
  attention with the column sums of the attention matrix.

  Reference form (`logitR … outR, scoreR`): logits `(q·kᵀ) / D`, a row softmax `A = e / L` with
  `e = exp (logit − row max)`, `L` the row sum of `e`; the results are `A·v` and the column sums of `A`.

  Kernel form, per query tile of 1024 rows (`logitKb … partKb`): logits `(q·c)·kᵀ` with `c = 1/D`, the
  un-normalised `p = exp (logit − row max)`, `l` its row sum; the tile's output is `(p·v) / l`, the tile's
  log-sum-exp is `row max + log l`, and the tile's share of a column sum is `∑ᵢ exp (logitᵢⱼ − lseᵢ)`.

  The two forms agree (`out_eq`, `score_eq`): `c = 1/D` moves the scale across the contraction,
  `(∑ⱼ pⱼ vⱼ) / l = ∑ⱼ (pⱼ / l) vⱼ`, and `exp (s − (m + log l)) = exp (s − m) / l` for `l > 0`.
-/
import Idealize.ShloMosaic.PureOps.Ideal

noncomputable section

namespace Cert.Attn

open scoped BigOperators

/-- The reference's divisor: the real number the f32 word `0x413504F3` encodes. -/
def D : ℝ := 11863283 / 1048576
/-- Its reciprocal: the value the kernel's scale constant is named as. -/
def cInv : ℝ := 1048576 / 11863283

/-! ## The kernel's form, for one query tile -/
section Block
variable (qb : Fin 1024 → Fin 128 → ℝ) (kb vb : Fin 2048 → Fin 128 → ℝ)

def logitKb (i : Fin 1024) (j : Fin 2048) : ℝ := ∑ d : Fin 128, (qb i d * cInv) * kb j d
def mKb (i : Fin 1024) : ℝ := Finset.univ.sup' Finset.univ_nonempty (logitKb qb kb i)
def pKb (i : Fin 1024) (j : Fin 2048) : ℝ := Real.exp (logitKb qb kb i j - mKb qb kb i)
def lKb (i : Fin 1024) : ℝ := ∑ j : Fin 2048, pKb qb kb i j
def outKb (i : Fin 1024) (d : Fin 128) : ℝ := (∑ j : Fin 2048, pKb qb kb i j * vb j d) / lKb qb kb i
def lseKb (i : Fin 1024) : ℝ := mKb qb kb i + Real.log (lKb qb kb i)
/-- A tile's share of column `j`'s sum, given the tile's log-sum-exp column `lse`. -/
def partKb (lse : Fin 1024 → ℝ) (j : Fin 2048) : ℝ := ∑ i : Fin 1024, Real.exp (logitKb qb kb i j - lse i)
end Block

/-! ## The reference's form, for one (batch, head) pair -/
section Whole
variable (q k v : Fin 2048 → Fin 128 → ℝ)

def logitR (i j : Fin 2048) : ℝ := (∑ d : Fin 128, q i d * k j d) / D
def mR (i : Fin 2048) : ℝ := Finset.univ.sup' Finset.univ_nonempty (logitR q k i)
def eR (i j : Fin 2048) : ℝ := Real.exp (logitR q k i j - mR q k i)
def LR (i : Fin 2048) : ℝ := ∑ j : Fin 2048, eR q k i j
def AR (i j : Fin 2048) : ℝ := eR q k i j / LR q k i
def scoreR (j : Fin 2048) : ℝ := ∑ i : Fin 2048, AR q k i j
def outR (i : Fin 2048) (d : Fin 128) : ℝ := ∑ j : Fin 2048, AR q k i j * v j d

/-- Row `i` of query tile `t` is row `t·1024 + i` of the whole array. -/
def row (t : Fin 2) (i : Fin 1024) : Fin 2048 := ⟨t.val * 1024 + i.val, by omega⟩
/-- Query tile `t` of a per-head array. -/
def tile (t : Fin 2) (i : Fin 1024) (d : Fin 128) : ℝ := q (row t i) d
end Whole

end Cert.Attn

end
-- ==== Proof.AttnCoe.lean ====
/-
  Extended reals that are real numbers: the coercion moved through the operations the two programs use
  (finite sums, a row maximum taken as a fold from −∞, the quotient by a non-zero real, exp, log of a positive real),
  and the values of the float words the programs carry.
-/
import proofs.«104356_j50740743635464_2_alg».proof.Proof.AttnSpec
import Idealize.ShloMosaic.PureOps.Ideal.Laws

noncomputable section

namespace Cert.Attn

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Over any non-empty finite set: the fold of `max` from −∞ of coerced reals is the coercion of the maximum. -/
theorem fold_max_coe_of_nonempty {ι : Type} (s : Finset ι) (hs : s.Nonempty) (f : ι → ℝ) :
    s.fold max (⊥ : EReal) (fun j => ((f j : ℝ) : EReal)) = ((s.sup' hs f : ℝ) : EReal) := by
  induction hs using Finset.Nonempty.cons_induction with
  | singleton a => simp [Finset.fold_singleton]
  | cons a s ha hs ih =>
    rw [Finset.fold_cons, ih, Finset.sup'_cons hs]
    exact (EReal.coe_strictMono.monotone.map_max).symm

/-- The fold of `max` from −∞ over a row of reals is the row's maximum. -/
theorem fold_max_coe (f : Fin 2048 → ℝ) :
    (Finset.univ : Finset (Fin 2048)).fold max (⊥ : EReal) (fun j => ((f j : ℝ) : EReal))
      = ((Finset.univ.sup' Finset.univ_nonempty f : ℝ) : EReal) :=
  fold_max_coe_of_nonempty Finset.univ Finset.univ_nonempty f

/-- The reference's divisor word is the real `D`. -/
theorem ofBits_D : Ideal.ofBits .f32 0x413504F3#32 = ((D : ℝ) : EReal) := by
  unfold D
  simp [Ideal.ofBits, Ideal.ieee, -EReal.coe_mul]
  norm_num

/-- The word `0xFF800000` is −∞. -/
theorem ofBits_neg_inf : Ideal.ofBits .f32 0xFF800000#32 = (⊥ : EReal) := by
  simp [Ideal.ofBits, Ideal.ieee]

theorem D_ne_zero : D ≠ 0 := by unfold D; norm_num
theorem cInv_eq : cInv = 1 / D := by unfold cInv D; norm_num

/-- The ideal quotient of two reals by a positive (or any non-zero) real is the real quotient. -/
theorem div_coe_real (x y : ℝ) (hy : y ≠ 0) : Ideal.div (x : EReal) (y : EReal) = ((x / y : ℝ) : EReal) := by
  rw [Ideal.div_coe hy, ← EReal.coe_mul, one_div, div_eq_mul_inv]

/-- The ideal logarithm of a positive real is the real logarithm. -/
theorem log_coe_pos (y : ℝ) (hy : 0 < y) : Ideal.log (y : EReal) = ((Real.log y : ℝ) : EReal) := by
  rw [Ideal.log_coe, if_neg (not_le.mpr hy)]

end Cert.Attn

end
-- ==== Proof.AttnAlgebra.lean ====
/-
  The two forms of attention agree over the reals (AttnSpec): the kernel's per-tile form against the reference's.
-/
import proofs.«104356_j50740743635464_2_alg».proof.Proof.AttnSpec

noncomputable section

namespace Cert.Attn

open scoped BigOperators

/-- A tile's row sums of `exp (logit − row max)` are positive. -/
theorem lKb_pos (qb : Fin 1024 → Fin 128 → ℝ) (kb : Fin 2048 → Fin 128 → ℝ) (i : Fin 1024) : 0 < lKb qb kb i := by
  unfold lKb pKb
  exact Finset.sum_pos (fun j _ => Real.exp_pos _) Finset.univ_nonempty

/-- The reference's row sums likewise. -/
theorem LR_pos (q k : Fin 2048 → Fin 128 → ℝ) (i : Fin 2048) : 0 < LR q k i := by
  unfold LR eR
  exact Finset.sum_pos (fun j _ => Real.exp_pos _) Finset.univ_nonempty

/-- The scale `1/D` moves across the contraction: a tile's logits are the reference's at the tile's rows. -/
theorem logit_eq (q k : Fin 2048 → Fin 128 → ℝ) (t : Fin 2) (i : Fin 1024) (j : Fin 2048) :
    logitKb (tile q t) k i j = logitR q k (row t i) j := by
  unfold logitKb logitR tile
  rw [Finset.sum_div]
  refine Finset.sum_congr rfl (fun d _ => ?_)
  unfold cInv D
  ring

/-- Hence the row maxima agree. -/
theorem mKb_eq (q k : Fin 2048 → Fin 128 → ℝ) (t : Fin 2) (i : Fin 1024) :
    mKb (tile q t) k i = mR q k (row t i) := by
  have h : logitKb (tile q t) k i = logitR q k (row t i) := funext (logit_eq q k t i)
  unfold mKb mR
  rw [h]

/-- The un-normalised exponentials agree. -/
theorem pKb_eq (q k : Fin 2048 → Fin 128 → ℝ) (t : Fin 2) (i : Fin 1024) (j : Fin 2048) :
    pKb (tile q t) k i j = eR q k (row t i) j := by
  unfold pKb eR
  rw [logit_eq, mKb_eq]

/-- The row sums agree. -/
theorem lKb_eq (q k : Fin 2048 → Fin 128 → ℝ) (t : Fin 2) (i : Fin 1024) :
    lKb (tile q t) k i = LR q k (row t i) := by
  unfold lKb LR
  exact Finset.sum_congr rfl (fun j _ => pKb_eq q k t i j)

/-- A tile's output rows are the reference's rows `t·1024 + i`. -/
theorem out_eq (q k v : Fin 2048 → Fin 128 → ℝ) (t : Fin 2) (i : Fin 1024) (d : Fin 128) :
    outKb (tile q t) k v i d = outR q k v (row t i) d := by
  unfold outKb outR AR
  rw [Finset.sum_div]
  refine Finset.sum_congr rfl (fun j _ => ?_)
  rw [pKb_eq, lKb_eq]
  ring

/-- `exp (s − (m + log l)) = exp (s − m) / l` for `l > 0`: an entry of a tile's share is the attention matrix's entry. -/
theorem exp_sub_lse_eq (q k : Fin 2048 → Fin 128 → ℝ) (t : Fin 2) (i : Fin 1024) (j : Fin 2048) :
    Real.exp (logitKb (tile q t) k i j - lseKb (tile q t) k i) = AR q k (row t i) j := by
  have hl : 0 < lKb (tile q t) k i := lKb_pos _ _ _
  have hp : Real.exp (logitKb (tile q t) k i j - mKb (tile q t) k i) = eR q k (row t i) j := pKb_eq q k t i j
  unfold lseKb AR
  rw [← sub_sub, Real.exp_sub, Real.exp_log hl, hp, lKb_eq]

/-- A tile's share of a column sum is the sum of the attention matrix's entries over the tile's rows. -/
theorem partKb_eq (q k : Fin 2048 → Fin 128 → ℝ) (t : Fin 2) (j : Fin 2048) :
    partKb (tile q t) k (lseKb (tile q t) k) j = ∑ i : Fin 1024, AR q k (row t i) j := by
  unfold partKb
  exact Finset.sum_congr rfl (fun i _ => exp_sub_lse_eq q k t i j)

/-- A sum over the 2048 rows is the sum over the first tile's rows plus the sum over the second's. -/
theorem sum_rows (f : Fin 2048 → ℝ) :
    ∑ i : Fin 2048, f i = ∑ i : Fin 1024, f (row 0 i) + ∑ i : Fin 1024, f (row 1 i) := by
  refine (Fin.sum_univ_add (a := 1024) (b := 1024) f).trans ?_
  refine congrArg₂ (· + ·) (Finset.sum_congr rfl fun i _ => congrArg f (Fin.ext ?_))
    (Finset.sum_congr rfl fun i _ => congrArg f (Fin.ext ?_))
  · simp [row]
  · simp [row]
    omega

/-- The two tiles' shares of a column sum, each taken against its own log-sum-exp column, add up to the reference's column sum. -/
theorem score_eq (q k : Fin 2048 → Fin 128 → ℝ) (j : Fin 2048) :
    partKb (tile q 0) k (lseKb (tile q 0) k) j + partKb (tile q 1) k (lseKb (tile q 1) k) j = scoreR q k j := by
  rw [partKb_eq, partKb_eq]
  unfold scoreR
  exact (sum_rows (fun i => AR q k i j)).symm

end Cert.Attn

end
-- ==== Proof.RefValue.lean ====
/-
  The reference's two results read at an index, as coerced reals: for real input arrays, each stage of the
  reference (logits, row maximum, exponentials, row sums, the attention matrix) at an index built from its
  coordinates is the coercion of the corresponding real quantity of the (batch, head) slice.
-/
import proofs.«104356_j50740743635464_2_alg».proof.Proof.Gen.ReferenceIdeal.Read
import proofs.«104356_j50740743635464_2_alg».proof.Proof.AttnCoe
import proofs.«104356_j50740743635464_2_alg».proof.Proof.AttnAlgebra
import Idealize.ShloMosaic.Lib.ValueIdx
import Idealize.ShloMosaic.PureOps.Reduce

noncomputable section

namespace Cert.Attn.Ref

open Idealize.ShloMosaic Cert.ReferenceIdeal Cert.ReferenceIdeal.Gen Cert.ReferenceIdeal.Read
open scoped BigOperators

/-- The (batch, head) slice of a [4,16,2048,128] real array. -/
def slice4 (A : Cert.ReferenceIdeal.S4x16x2048x128.Idx → ℝ) (b : Fin 4) (h : Fin 16) : Fin 2048 → Fin 128 → ℝ :=
  fun i d => A (ValueIdx.ix4 b h i d)

/-! ## Index equations: the stages' operand indices at an index built from coordinates -/

theorem lidx_v0 (b : Fin 4) (h : Fin 16) (i j : Fin 2048) (k : Fin 128) :
    lidx_main_v0 (ValueIdx.ix4 b h i j) k = ValueIdx.ix4 b h i k :=
  funext fun a => Fin.ext (by match a with | ⟨0, _⟩ => rfl | ⟨1, _⟩ => rfl | ⟨2, _⟩ => rfl | ⟨3, _⟩ => rfl)

theorem ridx_v0 (b : Fin 4) (h : Fin 16) (i j : Fin 2048) (k : Fin 128) :
    ridx_main_v0 (ValueIdx.ix4 b h i j) k = ValueIdx.ix4 b h j k :=
  funext fun a => Fin.ext (by match a with | ⟨0, _⟩ => rfl | ⟨1, _⟩ => rfl | ⟨2, _⟩ => rfl | ⟨3, _⟩ => rfl)

/-- The logits: the contraction over the feature axis, divided by the divisor word's value. -/
theorem logit_eq (Qr Kr : S4x16x2048x128.Idx → ℝ) (b : Fin 4) (h : Fin 16) (i j : Fin 2048) :
    val_main_v2 (F := Ideal) (fun x => ((Qr x : ℝ) : EReal)) (fun x => ((Kr x : ℝ) : EReal)) (ValueIdx.ix4 b h i j)
      = ((logitR (slice4 Qr b h) (slice4 Kr b h) i j : ℝ) : EReal) := by
  rw [val_main_v2_apply, val_main_v0_apply, val_main_v1_apply, val_main_cst_apply]
  simp only [Ideal.hostDivf_def, Ideal.ofBits_def, lidx_v0, ridx_v0, ← EReal.coe_mul]
  rw [← coe_sum, ofBits_D, div_coe_real _ _ D_ne_zero]
  rfl

/-! ## The row maximum -/

theorem reduces_d3 : S4x16x2048x2048.Reduces [3] S4x16x2048 := by decide

theorem lift_d3 (b : Fin 4) (h : Fin 16) (i : Fin 2048) (j : Fin 2048) :
    reduces_d3.lift (ValueIdx.ix3 b h i) j = ValueIdx.ix4 b h i j :=
  funext fun a => Fin.ext (by match a with | ⟨0, _⟩ => rfl | ⟨1, _⟩ => rfl | ⟨2, _⟩ => rfl | ⟨3, _⟩ => rfl)

/-- The maximum-reduce over the key axis from −∞ is the row maximum of the logits. -/
theorem rowmax_eq (Qr Kr : S4x16x2048x128.Idx → ℝ) (b : Fin 4) (h : Fin 16) (i : Fin 2048) :
    val_main_v3 (F := Ideal) (fun x => ((Qr x : ℝ) : EReal)) (fun x => ((Kr x : ℝ) : EReal)) (ValueIdx.ix3 b h i)
      = ((mR (slice4 Qr b h) (slice4 Kr b h) i : ℝ) : EReal) := by
  unfold val_main_v3
  rw [Host.reduce_eq_fold_single _ _ _ reducesTo_S4x16x2048x2048_S4x16x2048_d3 reduces_d3 h_S_ (ValueIdx.ix3 b h i)]
  have hfun : (val_main_v2 (F := Ideal) (fun x => ((Qr x : ℝ) : EReal)) (fun x => ((Kr x : ℝ) : EReal)) ∘ reduces_d3.lift (ValueIdx.ix3 b h i))
      = fun j : Fin 2048 => ((logitR (slice4 Qr b h) (slice4 Kr b h) i j : ℝ) : EReal) := by
    refine funext fun (j : Fin 2048) => ?_
    exact (congrArg (val_main_v2 (F := Ideal) (fun x => ((Qr x : ℝ) : EReal)) (fun x => ((Kr x : ℝ) : EReal))) (lift_d3 b h i j)).trans
      (logit_eq Qr Kr b h i j)
  rw [hfun, val_main_cst_0_apply, Ideal.ofBits_def, ofBits_neg_inf]
  exact fold_max_coe (logitR (slice4 Qr b h) (slice4 Kr b h) i)

/-- The elementwise maximum with the −∞ splat leaves the row maximum. -/
theorem rowmax'_eq (Qr Kr : S4x16x2048x128.Idx → ℝ) (b : Fin 4) (h : Fin 16) (i : Fin 2048) :
    val_main_v5 (F := Ideal) (fun x => ((Qr x : ℝ) : EReal)) (fun x => ((Kr x : ℝ) : EReal)) (ValueIdx.ix3 b h i)
      = ((mR (slice4 Qr b h) (slice4 Kr b h) i : ℝ) : EReal) := by
  rw [val_main_v5_apply, val_main_v4_apply, val_main_cst_1_apply, rowmax_eq]
  simp only [Ideal.maximumf_def, Ideal.ofBits_def, ofBits_neg_inf]
  exact max_eq_right bot_le

/-! ## The exponentials, their row sums, the attention matrix -/

theorem idx_v6_v7 (b : Fin 4) (h : Fin 16) (i j : Fin 2048) :
    idx_main_v6 (idx_main_v7 (ValueIdx.ix4 b h i j)) = ValueIdx.ix3 b h i :=
  funext fun a => Fin.ext (by match a with | ⟨0, _⟩ => rfl | ⟨1, _⟩ => rfl | ⟨2, _⟩ => rfl)

theorem idx_v11_v12 (b : Fin 4) (h : Fin 16) (i j : Fin 2048) :
    idx_main_v11 (idx_main_v12 (ValueIdx.ix4 b h i j)) = ValueIdx.ix3 b h i :=
  funext fun a => Fin.ext (by match a with | ⟨0, _⟩ => rfl | ⟨1, _⟩ => rfl | ⟨2, _⟩ => rfl)

theorem idx_v10 (b : Fin 4) (h : Fin 16) (i k : Fin 2048) :
    idx_main_v10 (ValueIdx.ix3 b h i) k = ValueIdx.ix4 b h i k :=
  funext fun a => Fin.ext (by match a with | ⟨0, _⟩ => rfl | ⟨1, _⟩ => rfl | ⟨2, _⟩ => rfl | ⟨3, _⟩ => rfl)

/-- The exponential of the logit minus its row maximum. -/
theorem e_eq (Qr Kr : S4x16x2048x128.Idx → ℝ) (b : Fin 4) (h : Fin 16) (i j : Fin 2048) :
    val_main_v9 (F := Ideal) (fun x => ((Qr x : ℝ) : EReal)) (fun x => ((Kr x : ℝ) : EReal)) (ValueIdx.ix4 b h i j)
      = ((eR (slice4 Qr b h) (slice4 Kr b h) i j : ℝ) : EReal) := by
  rw [val_main_v9_apply, val_main_v8_apply, val_main_v7_apply, val_main_v6_apply, idx_v6_v7, rowmax'_eq, logit_eq]
  simp only [Ideal.hostUnary_exp_def, Ideal.subf_def, ← EReal.coe_sub, Ideal.exp_coe]
  rfl

/-- The row sums of the exponentials. -/
theorem L_eq (Qr Kr : S4x16x2048x128.Idx → ℝ) (b : Fin 4) (h : Fin 16) (i : Fin 2048) :
    val_main_v10 (F := Ideal) (fun x => ((Qr x : ℝ) : EReal)) (fun x => ((Kr x : ℝ) : EReal)) (ValueIdx.ix3 b h i)
      = ((LR (slice4 Qr b h) (slice4 Kr b h) i : ℝ) : EReal) := by
  rw [val_main_v10_apply, val_main_cst_2_apply]
  simp only [Ideal.ofBits_def, Ideal.ofBits_zero_f32, zero_add, idx_v10, e_eq]
  rw [← coe_sum]
  rfl

/-- The attention matrix: each exponential over its row sum. -/
theorem A_eq (Qr Kr : S4x16x2048x128.Idx → ℝ) (b : Fin 4) (h : Fin 16) (i j : Fin 2048) :
    val_main_v13 (F := Ideal) (fun x => ((Qr x : ℝ) : EReal)) (fun x => ((Kr x : ℝ) : EReal)) (ValueIdx.ix4 b h i j)
      = ((AR (slice4 Qr b h) (slice4 Kr b h) i j : ℝ) : EReal) := by
  rw [val_main_v13_apply, val_main_v12_apply, val_main_v11_apply, idx_v11_v12, L_eq, e_eq, Ideal.hostDivf_def,
    div_coe_real _ _ (LR_pos (slice4 Qr b h) (slice4 Kr b h) i).ne']
  rfl

/-! ## The two results -/

theorem idx_v14 (b : Fin 4) (h : Fin 16) (j k : Fin 2048) :
    idx_main_v14 (ValueIdx.ix3 b h j) k = ValueIdx.ix4 b h k j :=
  funext fun a => Fin.ext (by match a with | ⟨0, _⟩ => rfl | ⟨1, _⟩ => rfl | ⟨2, _⟩ => rfl | ⟨3, _⟩ => rfl)

theorem lidx_v15 (b : Fin 4) (h : Fin 16) (i : Fin 2048) (d : Fin 128) (k : Fin 2048) :
    lidx_main_v15 (ValueIdx.ix4 b h i d) k = ValueIdx.ix4 b h i k :=
  funext fun a => Fin.ext (by match a with | ⟨0, _⟩ => rfl | ⟨1, _⟩ => rfl | ⟨2, _⟩ => rfl | ⟨3, _⟩ => rfl)

theorem ridx_v15 (b : Fin 4) (h : Fin 16) (i : Fin 2048) (d : Fin 128) (k : Fin 2048) :
    ridx_main_v15 (ValueIdx.ix4 b h i d) k = ValueIdx.ix4 b h k d :=
  funext fun a => Fin.ext (by match a with | ⟨0, _⟩ => rfl | ⟨1, _⟩ => rfl | ⟨2, _⟩ => rfl | ⟨3, _⟩ => rfl)

/-- The second result: the column sums of the attention matrix. -/
theorem ref_score (Qr Kr : Cert.ReferenceIdeal.S4x16x2048x128.Idx → ℝ) (b : Fin 4) (h : Fin 16) (j : Fin 2048) :
    Cert.ReferenceIdeal.Read.val_main_v14 (F := Ideal) (fun x => ((Qr x : ℝ) : EReal)) (fun x => ((Kr x : ℝ) : EReal)) (ValueIdx.ix3 b h j)
      = ((Cert.Attn.scoreR (slice4 Qr b h) (slice4 Kr b h) j : ℝ) : EReal) := by
  rw [val_main_v14_apply, val_main_cst_3_apply]
  simp only [Ideal.ofBits_def, Ideal.ofBits_zero_f32, zero_add, idx_v14, A_eq]
  rw [← coe_sum]
  rfl

/-- The first result: the attention matrix applied to the values. -/
theorem ref_out (Qr Kr Vr : Cert.ReferenceIdeal.S4x16x2048x128.Idx → ℝ) (b : Fin 4) (h : Fin 16) (i : Fin 2048) (d : Fin 128) :
    Cert.ReferenceIdeal.Read.val_main_v15 (F := Ideal) (fun x => ((Qr x : ℝ) : EReal)) (fun x => ((Kr x : ℝ) : EReal))
        (fun x => ((Vr x : ℝ) : EReal)) (ValueIdx.ix4 b h i d)
      = ((Cert.Attn.outR (slice4 Qr b h) (slice4 Kr b h) (slice4 Vr b h) i d : ℝ) : EReal) := by
  rw [val_main_v15_apply]
  simp only [lidx_v15, ridx_v15, A_eq, ← EReal.coe_mul]
  rw [← coe_sum]
  rfl

end Cert.Attn.Ref

end
-- ==== Proof.ValueA.lean ====
/-
  The first kernel call's two output arrays, from blocks to arrays.

  At grid point `t` the call handles (batch, head) pair `g = t / 2` and query tile `tq = t % 2`: it reads rows
  `tq·1024 … tq·1024 + 1023` of the queries of `g` and all the keys and values of `g`, and writes the same rows of the
  output and of the log-sum-exp column. So when the three input arrays hold real numbers `q3`, `k3`, `v3`, what point
  `t` writes back is block `t` of ONE function of the whole array's index — the reference's attention output at
  `(g, s, d)`, and the tile's log-sum-exp at `(g, s)` — and the blocks of the 128 points tile both arrays.
-/
import proofs.«104356_j50740743635464_2_alg».proof.Proof.FrameA
import proofs.«104356_j50740743635464_2_alg».proof.Proof.AttnAlgebra
import proofs.«104356_j50740743635464_2_alg».proof.Proof.Glue
import Idealize.ShloMosaic.Lib.Pipeline.Value
import Idealize.ShloMosaic.Lib.ValueIdx

noncomputable section

namespace Cert.Attn.ValA

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Attn.Glue

/-! ## The grid point's pair and tile -/

theorem lt128 (t : Fin cfg0.N) : t.val < 128 := lt_of_lt_of_eq t.isLt N_0

/-- The (batch, head) pair of point `t`. -/
def gOf (t : Fin cfg0.N) : Fin 64 := ⟨t.val / 2, by have := lt128 t; omega⟩
/-- The query tile of point `t`. -/
def tOf (t : Fin cfg0.N) : Fin 2 := ⟨t.val % 2, by omega⟩

theorem hz3 : (![0, 0, 0] : Fin 3 → Nat) = fun _ => 0 := funext fun a => by fin_cases a <;> rfl

/-! ## The input blocks, as entries of their arrays -/

section Blocks
variable {F : FTy → Type} [FloatOps F] [Named F]
variable (V : (c : Dev nD) → (b : Ref sig .tc) → Buf (Elt F) ((c : Thread nD τ).loc b)) (c : Dev nD)

/-- The query block at point `t`: rows `(t % 2)·1024 + i` of pair `t / 2`. -/
theorem iblk0_0_apply (t : Fin cfg0.N) (x : S1x1024x128.Idx) (k : S64x2048x128.Idx)
    (hk0 : (k 0).val = t.val / 2) (hk1 : (k 1).val = t.val % 2 * 1024 + (x 1).val) (hk2 : (k 2).val = (x 2).val) :
    (iblk0 V c 0 t : Vec F S1x1024x128 .f32) x = (V c main_v0 : S64x2048x128.Idx → Elt F .f32) k := by
  obtain ⟨e0, e1, e2⟩ := idx0_0 t
  unfold iblk0
  rw [View.read_apply]
  show (V c main_v0 : S64x2048x128.Idx → Elt F .f32) _ = V c main_v0 k
  congr 1
  funext a
  apply Fin.ext
  have hx0 : (x 0).val < 1 := (x 0).isLt
  match a with
  | ⟨0, _⟩ => show win0_0.index t (0 : Fin 3) * 1 + 1 * (x 0).val = (k 0).val; rw [e0, hk0]; omega
  | ⟨1, _⟩ => show win0_0.index t (1 : Fin 3) * 1024 + 1 * (x 1).val = (k 1).val; rw [e1, hk1]; omega
  | ⟨2, _⟩ => show win0_0.index t (2 : Fin 3) * 128 + 1 * (x 2).val = (k 2).val; rw [e2, hk2]; omega

/-- The key block at point `t`: all rows of pair `t / 2`. -/
theorem iblk0_1_apply (t : Fin cfg0.N) (x : S1x2048x128.Idx) (k : S64x2048x128.Idx)
    (hk0 : (k 0).val = t.val / 2) (hk1 : (k 1).val = (x 1).val) (hk2 : (k 2).val = (x 2).val) :
    (iblk0 V c 1 t : Vec F S1x2048x128 .f32) x = (V c main_v1 : S64x2048x128.Idx → Elt F .f32) k := by
  obtain ⟨e0, e1, e2⟩ := idx0_1 t
  unfold iblk0
  rw [View.read_apply]
  show (V c main_v1 : S64x2048x128.Idx → Elt F .f32) _ = V c main_v1 k
  congr 1
  funext a
  apply Fin.ext
  have hx0 : (x 0).val < 1 := (x 0).isLt
  match a with
  | ⟨0, _⟩ => show win0_1.index t (0 : Fin 3) * 1 + 1 * (x 0).val = (k 0).val; rw [e0, hk0]; omega
  | ⟨1, _⟩ => show win0_1.index t (1 : Fin 3) * 2048 + 1 * (x 1).val = (k 1).val; rw [e1, hk1]; omega
  | ⟨2, _⟩ => show win0_1.index t (2 : Fin 3) * 128 + 1 * (x 2).val = (k 2).val; rw [e2, hk2]; omega

/-- The value block at point `t`: all rows of pair `t / 2`. -/
theorem iblk0_2_apply (t : Fin cfg0.N) (x : S1x2048x128.Idx) (k : S64x2048x128.Idx)
    (hk0 : (k 0).val = t.val / 2) (hk1 : (k 1).val = (x 1).val) (hk2 : (k 2).val = (x 2).val) :
    (iblk0 V c 2 t : Vec F S1x2048x128 .f32) x = (V c main_v2 : S64x2048x128.Idx → Elt F .f32) k := by
  obtain ⟨e0, e1, e2⟩ := idx0_2 t
  unfold iblk0
  rw [View.read_apply]
  show (V c main_v2 : S64x2048x128.Idx → Elt F .f32) _ = V c main_v2 k
  congr 1
  funext a
  apply Fin.ext
  have hx0 : (x 0).val < 1 := (x 0).isLt
  match a with
  | ⟨0, _⟩ => show win0_2.index t (0 : Fin 3) * 1 + 1 * (x 0).val = (k 0).val; rw [e0, hk0]; omega
  | ⟨1, _⟩ => show win0_2.index t (1 : Fin 3) * 2048 + 1 * (x 1).val = (k 1).val; rw [e1, hk1]; omega
  | ⟨2, _⟩ => show win0_2.index t (2 : Fin 3) * 128 + 1 * (x 2).val = (k 2).val; rw [e2, hk2]; omega

end Blocks

/-! ## The two outputs as functions of the whole array's index -/

section Values
variable (q3 k3 v3 : Fin 64 → Fin 2048 → Fin 128 → ℝ)

/-- The reference's attention output of pair `g` at row `s`, column `d`. -/
def outAt (g : Fin 64) (s : Fin 2048) (d : Fin 128) : EReal := ((outR (q3 g) (k3 g) (v3 g) s d : ℝ) : EReal)

/-- The log-sum-exp of row `s` of pair `g`, taken within the row's query tile. -/
def lseAt (g : Fin 64) (s : Fin 2048) : EReal :=
  ((lseKb (tile (q3 g) ⟨s.val / 1024, by omega⟩) (k3 g) ⟨s.val % 1024, by omega⟩ : ℝ) : EReal)

/-- What the output array ends holding. -/
def G3 : S64x2048x128.Idx → EReal := fun x => outAt q3 k3 v3 (x 0) (x 1) (x 2)
/-- What the log-sum-exp array ends holding. -/
def G4 : S64x2048x1.Idx → EReal := fun x => lseAt q3 k3 (x 0) (x 1)

theorem lseAt_row (g : Fin 64) (t : Fin 2) (i : Fin 1024) :
    lseAt q3 k3 g (row t i) = ((lseKb (tile (q3 g) t) (k3 g) i : ℝ) : EReal) := by
  unfold lseAt
  have h1 : (⟨(row t i).val / 1024, by omega⟩ : Fin 2) = t := Fin.ext (by show (t.val * 1024 + i.val) / 1024 = t.val; omega)
  have h2 : (⟨(row t i).val % 1024, by omega⟩ : Fin 1024) = i := Fin.ext (by show (t.val * 1024 + i.val) % 1024 = i.val; omega)
  rw [h1, h2]

/-! ## The body's two payloads on blocks that hold a tile's reals

`hp5`, `hp6`: the payloads at an index, for blocks holding real numbers (the kernel's arithmetic, proved apart). -/

variable (hp5 : ∀ (qb : Fin 1024 → Fin 128 → ℝ) (kb vb : Fin 2048 → Fin 128 → ℝ)
    (x0 : Vec Ideal S1x1024x128 .f32) (x1 x2 : Vec Ideal S1x2048x128 .f32),
    (∀ i d, x0 (ix3 (0 : Fin 1) i d) = ((qb i d : ℝ) : EReal)) → (∀ j d, x1 (ix3 (0 : Fin 1) j d) = ((kb j d : ℝ) : EReal)) →
    (∀ j d, x2 (ix3 (0 : Fin 1) j d) = ((vb j d : ℝ) : EReal)) →
    ∀ i d, k0_pay5 (F := Ideal) x0 x1 x2 (ix3 (0 : Fin 1) i d) = ((outKb qb kb vb i d : ℝ) : EReal))
variable (hp6 : ∀ (qb : Fin 1024 → Fin 128 → ℝ) (kb : Fin 2048 → Fin 128 → ℝ)
    (x0 : Vec Ideal S1x1024x128 .f32) (x1 : Vec Ideal S1x2048x128 .f32),
    (∀ i d, x0 (ix3 (0 : Fin 1) i d) = ((qb i d : ℝ) : EReal)) → (∀ j d, x1 (ix3 (0 : Fin 1) j d) = ((kb j d : ℝ) : EReal)) →
    ∀ i, k0_pay6 (F := Ideal) x0 x1 (ix3 (0 : Fin 1) i (0 : Fin 1)) = ((lseKb qb kb i : ℝ) : EReal))

include hp5 in
/-- The output payload at an index of the block, when the blocks hold tile `tq` of pair `g`. -/
theorem pay5_point (x0 : Vec Ideal S1x1024x128 .f32) (x1 x2 : Vec Ideal S1x2048x128 .f32) (g : Fin 64) (tq : Fin 2)
    (h0 : ∀ i d, x0 (ix3 (0 : Fin 1) i d) = ((tile (q3 g) tq i d : ℝ) : EReal))
    (h1 : ∀ j d, x1 (ix3 (0 : Fin 1) j d) = ((k3 g j d : ℝ) : EReal))
    (h2 : ∀ j d, x2 (ix3 (0 : Fin 1) j d) = ((v3 g j d : ℝ) : EReal))
    (y0 : Fin 1) (i : Fin 1024) (d : Fin 128) :
    k0_pay5 (F := Ideal) x0 x1 x2 (ix3 y0 i d) = outAt q3 k3 v3 g (row tq i) d := by
  obtain rfl : y0 = 0 := Subsingleton.elim _ _
  rw [hp5 (tile (q3 g) tq) (k3 g) (v3 g) x0 x1 x2 h0 h1 h2 i d, out_eq]
  rfl

include hp6 in
/-- The log-sum-exp payload at an index of the block. -/
theorem pay6_point (x0 : Vec Ideal S1x1024x128 .f32) (x1 : Vec Ideal S1x2048x128 .f32) (g : Fin 64) (tq : Fin 2)
    (h0 : ∀ i d, x0 (ix3 (0 : Fin 1) i d) = ((tile (q3 g) tq i d : ℝ) : EReal))
    (h1 : ∀ j d, x1 (ix3 (0 : Fin 1) j d) = ((k3 g j d : ℝ) : EReal))
    (y0 : Fin 1) (i : Fin 1024) (y2 : Fin 1) :
    k0_pay6 (F := Ideal) x0 x1 (ix3 y0 i y2) = lseAt q3 k3 g (row tq i) := by
  obtain rfl : y0 = 0 := Subsingleton.elim _ _
  obtain rfl : y2 = 0 := Subsingleton.elim _ _
  rw [hp6 (tile (q3 g) tq) (k3 g) x0 x1 h0 h1 i, lseAt_row]

end Values

/-! ## What a point writes back, and the cover -/

section Final
variable (V : (c : Dev nD) → (b : Ref sig .tc) → Buf (Elt Ideal) ((c : Thread nD τ).loc b)) (c : Dev nD)
variable (q3 k3 v3 : Fin 64 → Fin 2048 → Fin 128 → ℝ)
variable (hq : ∀ g s d, (V c main_v0 : S64x2048x128.Idx → EReal) (ix3 g s d) = ((q3 g s d : ℝ) : EReal))
variable (hk : ∀ g s d, (V c main_v1 : S64x2048x128.Idx → EReal) (ix3 g s d) = ((k3 g s d : ℝ) : EReal))
variable (hv : ∀ g s d, (V c main_v2 : S64x2048x128.Idx → EReal) (ix3 g s d) = ((v3 g s d : ℝ) : EReal))
variable (hp5 : ∀ (qb : Fin 1024 → Fin 128 → ℝ) (kb vb : Fin 2048 → Fin 128 → ℝ)
    (x0 : Vec Ideal S1x1024x128 .f32) (x1 x2 : Vec Ideal S1x2048x128 .f32),
    (∀ i d, x0 (ix3 (0 : Fin 1) i d) = ((qb i d : ℝ) : EReal)) → (∀ j d, x1 (ix3 (0 : Fin 1) j d) = ((kb j d : ℝ) : EReal)) →
    (∀ j d, x2 (ix3 (0 : Fin 1) j d) = ((vb j d : ℝ) : EReal)) →
    ∀ i d, k0_pay5 (F := Ideal) x0 x1 x2 (ix3 (0 : Fin 1) i d) = ((outKb qb kb vb i d : ℝ) : EReal))
variable (hp6 : ∀ (qb : Fin 1024 → Fin 128 → ℝ) (kb : Fin 2048 → Fin 128 → ℝ)
    (x0 : Vec Ideal S1x1024x128 .f32) (x1 : Vec Ideal S1x2048x128 .f32),
    (∀ i d, x0 (ix3 (0 : Fin 1) i d) = ((qb i d : ℝ) : EReal)) → (∀ j d, x1 (ix3 (0 : Fin 1) j d) = ((kb j d : ℝ) : EReal)) →
    ∀ i, k0_pay6 (F := Ideal) x0 x1 (ix3 (0 : Fin 1) i (0 : Fin 1)) = ((lseKb qb kb i : ℝ) : EReal))

include hq in
/-- The query block at point `t` holds tile `t % 2` of pair `t / 2`. -/
theorem blk_q (t : Fin cfg0.N) (i : Fin 1024) (d : Fin 128) :
    (iblk0 V c 0 t : Vec Ideal S1x1024x128 .f32) (ix3 (0 : Fin 1) i d) = ((tile (q3 (gOf t)) (tOf t) i d : ℝ) : EReal) := by
  rw [iblk0_0_apply V c t (ix3 (0 : Fin 1) i d) (ix3 (gOf t) (row (tOf t) i) d) rfl rfl rfl, hq]
  rfl

include hk in
/-- The key block at point `t` holds the keys of pair `t / 2`. -/
theorem blk_k (t : Fin cfg0.N) (j : Fin 2048) (d : Fin 128) :
    (iblk0 V c 1 t : Vec Ideal S1x2048x128 .f32) (ix3 (0 : Fin 1) j d) = ((k3 (gOf t) j d : ℝ) : EReal) := by
  rw [iblk0_1_apply V c t (ix3 (0 : Fin 1) j d) (ix3 (gOf t) j d) rfl rfl rfl, hk]

include hv in
/-- The value block at point `t` holds the values of pair `t / 2`. -/
theorem blk_v (t : Fin cfg0.N) (j : Fin 2048) (d : Fin 128) :
    (iblk0 V c 2 t : Vec Ideal S1x2048x128 .f32) (ix3 (0 : Fin 1) j d) = ((v3 (gOf t) j d : ℝ) : EReal) := by
  rw [iblk0_2_apply V c t (ix3 (0 : Fin 1) j d) (ix3 (gOf t) j d) rfl rfl rfl, hv]

include hp5 in
/-- The output payload at a block index, as the whole-array function at the array index the block index sits at. -/
theorem flush3_point (x0 : Vec Ideal S1x1024x128 .f32) (x1 x2 : Vec Ideal S1x2048x128 .f32) (g : Fin 64) (tq : Fin 2)
    (h0 : ∀ i d, x0 (ix3 (0 : Fin 1) i d) = ((tile (q3 g) tq i d : ℝ) : EReal))
    (h1 : ∀ j d, x1 (ix3 (0 : Fin 1) j d) = ((k3 g j d : ℝ) : EReal))
    (h2 : ∀ j d, x2 (ix3 (0 : Fin 1) j d) = ((v3 g j d : ℝ) : EReal))
    (y : S1x1024x128.Idx) (k : S64x2048x128.Idx)
    (hk0 : (k 0).val = g.val) (hk1 : (k 1).val = tq.val * 1024 + (y 1).val) (hk2 : (k 2).val = (y 2).val) :
    k0_pay5 (F := Ideal) x0 x1 x2 y = G3 q3 k3 v3 k := by
  obtain ⟨y0, i, d, rfl⟩ : ∃ (y0 : Fin 1) (i : Fin 1024) (d : Fin 128), y = ix3 y0 i d := ⟨y 0, y 1, y 2, eq_ix3 y⟩
  obtain ⟨k0, k1, k2, rfl⟩ : ∃ (k0 : Fin 64) (k1 : Fin 2048) (k2 : Fin 128), k = ix3 k0 k1 k2 := ⟨k 0, k 1, k 2, eq_ix3 k⟩
  obtain rfl : k0 = g := Fin.ext hk0
  obtain rfl : k1 = row tq i := Fin.ext hk1
  obtain rfl : k2 = d := Fin.ext hk2
  rw [pay5_point q3 k3 v3 hp5 x0 x1 x2 k0 tq h0 h1 h2]
  rfl

include hp6 in
/-- The log-sum-exp payload at a block index, likewise. -/
theorem flush4_point (x0 : Vec Ideal S1x1024x128 .f32) (x1 : Vec Ideal S1x2048x128 .f32) (g : Fin 64) (tq : Fin 2)
    (h0 : ∀ i d, x0 (ix3 (0 : Fin 1) i d) = ((tile (q3 g) tq i d : ℝ) : EReal))
    (h1 : ∀ j d, x1 (ix3 (0 : Fin 1) j d) = ((k3 g j d : ℝ) : EReal))
    (y : S1x1024x1.Idx) (k : S64x2048x1.Idx)
    (hk0 : (k 0).val = g.val) (hk1 : (k 1).val = tq.val * 1024 + (y 1).val) :
    k0_pay6 (F := Ideal) x0 x1 y = G4 q3 k3 k := by
  obtain ⟨y0, i, y2, rfl⟩ : ∃ (y0 : Fin 1) (i : Fin 1024) (y2 : Fin 1), y = ix3 y0 i y2 := ⟨y 0, y 1, y 2, eq_ix3 y⟩
  obtain ⟨k0, k1, k2, rfl⟩ : ∃ (k0 : Fin 64) (k1 : Fin 2048) (k2 : Fin 1), k = ix3 k0 k1 k2 := ⟨k 0, k 1, k 2, eq_ix3 k⟩
  obtain rfl : k0 = g := Fin.ext hk0
  obtain rfl : k1 = row tq i := Fin.ext hk1
  rw [pay6_point q3 k3 hp6 x0 x1 k0 tq h0 h1]
  rfl

include hq hk hv hp5 in
/-- WHAT POINT `t` WRITES BACK to the output array is block `t` of `G3`. -/
theorem flushed3_eq (t : Fin cfg0.N) :
    (dat0 V c).flushed 3 t = ((cfg0.win 3).blk t).view.read (Elt Ideal) (G3 q3 k3 v3) := by
  show (cfg0.win 3).cut (grid0.coords t) ((dat0 V c).after 3 t) = _
  rw [after0_3]
  unfold out0_3
  rw [View.canon_unit_zero hz3]
  simp only [View.ld_unit_zero (S := S1x1024x128) hz3, View.ld_unit_zero (S := S1x2048x128) hz3]
  obtain ⟨e0, e1, e2⟩ := idx0_3 t
  funext y
  refine flush3_point q3 k3 v3 hp5 (iblk0 V c 0 t) (iblk0 V c 1 t) (iblk0 V c 2 t) (gOf t) (tOf t)
    (blk_q V c q3 hq t) (blk_k V c k3 hk t) (blk_v V c v3 hv t) y (((cfg0.win 3).blk t).view.emb y) ?_ ?_ ?_
  · show win0_3.index t (0 : Fin 3) * 1 + 1 * (y 0).val = t.val / 2
    have hy0 : (y 0).val < 1 := (y 0).isLt
    rw [e0]; omega
  · show win0_3.index t (1 : Fin 3) * 1024 + 1 * (y 1).val = t.val % 2 * 1024 + (y 1).val
    rw [e1]; omega
  · show win0_3.index t (2 : Fin 3) * 128 + 1 * (y 2).val = (y 2).val
    rw [e2]; omega

include hq hk hp6 in
/-- WHAT POINT `t` WRITES BACK to the log-sum-exp array is block `t` of `G4`. -/
theorem flushed4_eq (t : Fin cfg0.N) :
    (dat0 V c).flushed 4 t = ((cfg0.win 4).blk t).view.read (Elt Ideal) (G4 q3 k3) := by
  show (cfg0.win 4).cut (grid0.coords t) ((dat0 V c).after 4 t) = _
  rw [after0_4]
  unfold out0_4
  rw [View.canon_unit_zero hz3]
  simp only [View.ld_unit_zero (S := S1x1024x128) hz3, View.ld_unit_zero (S := S1x2048x128) hz3]
  obtain ⟨e0, e1, e2⟩ := idx0_4 t
  funext y
  refine flush4_point q3 k3 hp6 (iblk0 V c 0 t) (iblk0 V c 1 t) (gOf t) (tOf t)
    (blk_q V c q3 hq t) (blk_k V c k3 hk t) y (((cfg0.win 4).blk t).view.emb y) ?_ ?_
  · show win0_4.index t (0 : Fin 3) * 1 + 1 * (y 0).val = t.val / 2
    have hy0 : (y 0).val < 1 := (y 0).isLt
    rw [e0]; omega
  · show win0_4.index t (1 : Fin 3) * 1024 + 1 * (y 1).val = t.val % 2 * 1024 + (y 1).val
    rw [e1]; omega

/-- An index of the output array is in point `t`'s block iff each coordinate is in the block's range on its axis. -/
theorem mem_blk3 (t : Fin cfg0.N) (i : S64x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v3_0).slice (win0_3.rect t)).set ↔ _
  rw [View.set_slice_whole, Rect.mem_set_unit]
  exact Iff.rfl

/-- Likewise for the log-sum-exp array. -/
theorem mem_blk4 (t : Fin cfg0.N) (i : S64x2048x1.Idx) :
    i ∈ ((cfg0.win 4).blk t).view.set ↔ ∀ a : Fin 3, win0_4.index t a * S1x1024x1.size a ≤ (i a).val
      ∧ (i a).val < win0_4.index t a * S1x1024x1.size a + S1x1024x1.size a := by
  show i ∈ ((View.whole main_v3_1).slice (win0_4.rect t)).set ↔ _
  rw [View.set_slice_whole, Rect.mem_set_unit]
  exact Iff.rfl

/-- The point that handles row `s` of pair `g`: `2 g + s / 1024`. -/
def ptOf (g s : Nat) (hg : g < 64) (hs : s < 2048) : Fin cfg0.N :=
  ⟨2 * g + s / 1024, by show _ < grid0.N; rw [N_0]; omega⟩

/-- Every index of the output array is in the block of the point that handles its row. -/
theorem cover3 (i : S64x2048x128.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  refine ⟨ptOf (i 0).val (i 1).val h0 h1, flush0_3 _, ?_⟩
  rw [mem_blk3]
  obtain ⟨e0, e1, e2⟩ := idx0_3 (ptOf (i 0).val (i 1).val h0 h1)
  have ht : (ptOf (i 0).val (i 1).val h0 h1).val = 2 * (i 0).val + (i 1).val / 1024 := rfl
  intro a
  match a with
  | ⟨0, _⟩ =>
    show win0_3.index _ (0 : Fin 3) * 1 ≤ (i 0).val ∧ (i 0).val < win0_3.index _ (0 : Fin 3) * 1 + 1
    rw [e0, ht]; omega
  | ⟨1, _⟩ =>
    show win0_3.index _ (1 : Fin 3) * 1024 ≤ (i 1).val ∧ (i 1).val < win0_3.index _ (1 : Fin 3) * 1024 + 1024
    rw [e1, ht]; omega
  | ⟨2, _⟩ =>
    show win0_3.index _ (2 : Fin 3) * 128 ≤ (i 2).val ∧ (i 2).val < win0_3.index _ (2 : Fin 3) * 128 + 128
    rw [e2]; omega

/-- Every index of the log-sum-exp array is in the block of the point that handles its row. -/
theorem cover4 (i : S64x2048x1.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 1 := (i 2).isLt
  refine ⟨ptOf (i 0).val (i 1).val h0 h1, flush0_4 _, ?_⟩
  rw [mem_blk4]
  obtain ⟨e0, e1, e2⟩ := idx0_4 (ptOf (i 0).val (i 1).val h0 h1)
  have ht : (ptOf (i 0).val (i 1).val h0 h1).val = 2 * (i 0).val + (i 1).val / 1024 := rfl
  intro a
  match a with
  | ⟨0, _⟩ =>
    show win0_4.index _ (0 : Fin 3) * 1 ≤ (i 0).val ∧ (i 0).val < win0_4.index _ (0 : Fin 3) * 1 + 1
    rw [e0, ht]; omega
  | ⟨1, _⟩ =>
    show win0_4.index _ (1 : Fin 3) * 1024 ≤ (i 1).val ∧ (i 1).val < win0_4.index _ (1 : Fin 3) * 1024 + 1024
    rw [e1, ht]; omega
  | ⟨2, _⟩ =>
    show win0_4.index _ (2 : Fin 3) * 1 ≤ (i 2).val ∧ (i 2).val < win0_4.index _ (2 : Fin 3) * 1 + 1
    rw [e2]; omega

include hq hk hv hp5 in
/-- THE OUTPUT ARRAY after the call: the reference's attention output, pair by pair. -/
theorem final3 : (dat0 V c).arrAt 3 cfg0.N = G3 q3 k3 v3 :=
  (dat0 V c).arrAt_eq_of_cover 3 (G3 q3 k3 v3) (fun t _ => flushed3_eq V c q3 k3 v3 hq hk hv hp5 t) cover3

include hq hk hp6 in
/-- THE LOG-SUM-EXP ARRAY after the call: each row's log-sum-exp within its query tile. -/
theorem final4 : (dat0 V c).arrAt 4 cfg0.N = G4 q3 k3 :=
  (dat0 V c).arrAt_eq_of_cover 4 (G4 q3 k3) (fun t _ => flushed4_eq V c q3 k3 hq hk hp6 t) cover4

include hq hk hv hp5 in
theorem out_final (g : Fin 64) (s : Fin 2048) (d : Fin 128) :
    (dat0 V c).arrAt 3 cfg0.N (ix3 g s d) = ((outR (q3 g) (k3 g) (v3 g) s d : ℝ) : EReal) := by
  rw [final3 V c q3 k3 v3 hq hk hv hp5]
  rfl

include hq hk hp6 in
theorem lse_final (g : Fin 64) (t : Fin 2) (i : Fin 1024) :
    (dat0 V c).arrAt 4 cfg0.N (ix3 g (row t i) (0 : Fin 1)) = ((lseKb (tile (q3 g) t) (k3 g) i : ℝ) : EReal) := by
  rw [final4 V c q3 k3 hq hk hp6]
  exact lseAt_row q3 k3 g t i

end Final

end Cert.Attn.ValA

end
-- ==== Proof.ValueB.lean ====
/-
  The second kernel call's value: what the accumulator and the output block hold after each grid point, read as
  real numbers, and the column sums the call leaves in its output array.
-/
import proofs.«104356_j50740743635464_2_alg».proof.Proof.FrameB2
import Idealize.ShloMosaic.Lib.Pipeline.Value
import proofs.«104356_j50740743635464_2_alg».proof.Proof.Glue
import proofs.«104356_j50740743635464_2_alg».proof.Proof.AttnAlgebra
import proofs.«104356_j50740743635464_2_alg».proof.Proof.AttnCoe
import Idealize.ShloMosaic.Lib.ValueIdx
import Idealize.ShloMosaic.Lib.Tactic

set_option maxRecDepth 16384

noncomputable section

namespace Cert.Attn.ValB

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves, as the body's arithmetic applied to the blocks -/

/-- Tile 0 leaves in the accumulator the tile's column shares added to the zero row it has just stored. -/
theorem sout_A (c : Dev nD) (i : grid1.Coords) (a2 : Memref sig .tc .vmem S1x1024x128 .f32) (h2 : a2.IsWhole)
    (a3 : Memref sig .tc .vmem S1x2048x128 .f32) (h3 : a3.IsWhole) (a4 : Memref sig .tc .vmem S1x1024x1 .f32) (h4 : a4.IsWhole)
    (a5 : Memref sig .tc .vmem S1x1x2048 .f32) (h5 : a5.IsWhole) (a6 : Memref sig .tc .vmem S1x2048 .f32) (h6 : a6.IsWhole)
    (hc0 : cond1_0 i) (hc1 : ¬cond1_1 i) (x0 : Vec F S1x1024x128 .f32) (x1 : Vec F S1x2048x128 .f32) (x2 : Vec F S1x1024x1 .f32) :
    sout1_A_0 c i a2 h2 a3 h3 a4 h4 a5 h5 a6 h6 hc0 hc1 x0 x1 x2 = k1_pay2 x0 x1 x2 (k1_pay1 (F := F)) := by
  unfold sout1_A_0
  rw [View.read_writes_eq_canon _ _ _ (scover1_A_0 c i a2 h2 a3 h3 a4 h4 a5 h5 a6 h6 hc0 hc1 x0 x1 x2)]
  unfold kernelRun1_A
  dsimp only
  sl_unfold_words
  rw [View.canon_cons_unit_zero (S := S1x2048) hz2, View.readCov_unit_zero (S := S1x2048) _ hz2]
  simp only [View.readAt_eq_ld, h2.read_unread, h3.read_unread, h4.read_unread, View.ld_unit_zero (S := S1x1024x128) hz3,
    View.ld_unit_zero (S := S1x2048x128) hz3, View.ld_unit_zero (S := S1x1024x1) hz3]

/-- Tile 1 leaves in the accumulator the tile's column shares added to what it held. -/
theorem sout_B (c : Dev nD) (i : grid1.Coords) (a2 : Memref sig .tc .vmem S1x1024x128 .f32) (h2 : a2.IsWhole)
    (a3 : Memref sig .tc .vmem S1x2048x128 .f32) (h3 : a3.IsWhole) (a4 : Memref sig .tc .vmem S1x1024x1 .f32) (h4 : a4.IsWhole)
    (a5 : Memref sig .tc .vmem S1x1x2048 .f32) (h5 : a5.IsWhole) (a6 : Memref sig .tc .vmem S1x2048 .f32) (h6 : a6.IsWhole)
    (hc0 : ¬cond1_0 i) (hc1 : cond1_1 i) (x0 : Vec F S1x1024x128 .f32) (x1 : Vec F S1x2048x128 .f32) (x2 : Vec F S1x1024x1 .f32)
    (xs0 : Vec F S1x2048 .f32) :
    sout1_B_0 c i a2 h2 a3 h3 a4 h4 a5 h5 a6 h6 hc0 hc1 x0 x1 x2 xs0 = k1_pay2 x0 x1 x2 xs0 := by
  unfold sout1_B_0
  rw [View.read_writes_eq_canon _ _ _ (scover1_B_0 c i a2 h2 a3 h3 a4 h4 a5 h5 a6 h6 hc0 hc1 x0 x1 x2 xs0)]
  unfold kernelRun1_B
  dsimp only
  sl_unfold_words
  rw [View.canon_unit_zero hz2]
  simp only [View.readAt_eq_ld, h2.read_unread, h3.read_unread, h4.read_unread, h6.read_unread,
    View.ld_unit_zero (S := S1x1024x128) hz3, View.ld_unit_zero (S := S1x2048x128) hz3, View.ld_unit_zero (S := S1x1024x1) hz3,
    View.ld_unit_zero (S := S1x2048) hz2]

/-- Tile 1 leaves in the output block the accumulator's new row, as a [1, 1, 2048] block. -/
theorem out_B (c : Dev nD) (i : grid1.Coords) (a2 : Memref sig .tc .vmem S1x1024x128 .f32) (h2 : a2.IsWhole)
    (a3 : Memref sig .tc .vmem S1x2048x128 .f32) (h3 : a3.IsWhole) (a4 : Memref sig .tc .vmem S1x1024x1 .f32) (h4 : a4.IsWhole)
    (a5 : Memref sig .tc .vmem S1x1x2048 .f32) (h5 : a5.IsWhole) (a6 : Memref sig .tc .vmem S1x2048 .f32) (h6 : a6.IsWhole)
    (hc0 : ¬cond1_0 i) (hc1 : cond1_1 i) (x0 : Vec F S1x1024x128 .f32) (x1 : Vec F S1x2048x128 .f32) (x2 : Vec F S1x1024x1 .f32)
    (xs0 : Vec F S1x2048 .f32) :
    out1_B_3 c i a2 h2 a3 h3 a4 h4 a5 h5 a6 h6 hc0 hc1 x0 x1 x2 xs0 = k1_pay3 (k1_pay2 x0 x1 x2 xs0) := by
  unfold out1_B_3
  rw [View.read_writes_eq_canon _ _ _ (cover1_B_3 c i a2 h2 a3 h3 a4 h4 a5 h5 a6 h6 hc0 hc1 x0 x1 x2 xs0)]
  unfold kernelRun1_B
  dsimp only
  sl_unfold_words
  rw [View.canon_unit_zero hz3, View.readCov_unit_zero (S := S1x2048) _ hz2]
  simp only [View.readAt_eq_ld, h2.read_unread, h3.read_unread, h4.read_unread, h6.read_unread,
    View.ld_unit_zero (S := S1x1024x128) hz3, View.ld_unit_zero (S := S1x2048x128) hz3, View.ld_unit_zero (S := S1x1024x1) hz3,
    View.ld_unit_zero (S := S1x2048) hz2]

/-! ## The blocks the body reads, at a point given by its (batch·head, tile) coordinates -/

section Final
variable (V : (c : Dev nD) → (b : Ref sig .tc) → Buf (Elt Ideal) ((c : Thread nD τ).loc b)) (c : Dev nD)

/-- The grid point of (batch·head) pair g and query tile tl: the grid [64, 2] is run row-major. -/
def pt (g : Fin 64) (tl : Fin 2) : Fin cfg1.N := ⟨2 * g.val + tl.val, by rw [show cfg1.N = 128 from N_1]; omega⟩

theorem pt_val (g : Fin 64) (tl : Fin 2) : (pt g tl).val = 2 * g.val + tl.val := rfl

theorem blk0_apply (g : Fin 64) (tl : Fin 2) (i : Fin 1024) (d : Fin 128) :
    (iblk1 V c 0 (pt g tl) : S1x1024x128.Idx → Elt Ideal .f32) (ix3 (0 : Fin 1) i d)
      = (V c main_v0 : S64x2048x128.Idx → Elt Ideal .f32) (ix3 g (Cert.Attn.row tl i) d) := by
  show (V c main_v0 : S64x2048x128.Idx → Elt Ideal .f32) (((cfg1.win 0).blk (pt g tl)).view.emb (ix3 (0 : Fin 1) i d)) = _
  congr 1
  funext a
  apply Fin.ext
  obtain ⟨e0, e1, e2⟩ := Glue.idx1_0 (pt g tl)
  have hv := pt_val g tl
  have hg := g.isLt
  have htl := tl.isLt
  match a with
  | ⟨0, _⟩ => show win1_0.index (pt g tl) (0 : Fin 3) * 1 + 1 * 0 = g.val; omega
  | ⟨1, _⟩ => show win1_0.index (pt g tl) (1 : Fin 3) * 1024 + 1 * i.val = tl.val * 1024 + i.val; omega
  | ⟨2, _⟩ => show win1_0.index (pt g tl) (2 : Fin 3) * 128 + 1 * d.val = d.val; omega

theorem blk1_apply (g : Fin 64) (tl : Fin 2) (s : Fin 2048) (d : Fin 128) :
    (iblk1 V c 1 (pt g tl) : S1x2048x128.Idx → Elt Ideal .f32) (ix3 (0 : Fin 1) s d)
      = (V c main_v1 : S64x2048x128.Idx → Elt Ideal .f32) (ix3 g s d) := by
  show (V c main_v1 : S64x2048x128.Idx → Elt Ideal .f32) (((cfg1.win 1).blk (pt g tl)).view.emb (ix3 (0 : Fin 1) s d)) = _
  congr 1
  funext a
  apply Fin.ext
  obtain ⟨e0, e1, e2⟩ := Glue.idx1_1 (pt g tl)
  have hv := pt_val g tl
  have hg := g.isLt
  have htl := tl.isLt
  match a with
  | ⟨0, _⟩ => show win1_1.index (pt g tl) (0 : Fin 3) * 1 + 1 * 0 = g.val; omega
  | ⟨1, _⟩ => show win1_1.index (pt g tl) (1 : Fin 3) * 2048 + 1 * s.val = s.val; omega
  | ⟨2, _⟩ => show win1_1.index (pt g tl) (2 : Fin 3) * 128 + 1 * d.val = d.val; omega

theorem blk2_apply (g : Fin 64) (tl : Fin 2) (i : Fin 1024) :
    (iblk1 V c 2 (pt g tl) : S1x1024x1.Idx → Elt Ideal .f32) (ix3 (0 : Fin 1) i (0 : Fin 1))
      = (V c main_v3_1 : S64x2048x1.Idx → Elt Ideal .f32) (ix3 g (Cert.Attn.row tl i) (0 : Fin 1)) := by
  show (V c main_v3_1 : S64x2048x1.Idx → Elt Ideal .f32) (((cfg1.win 2).blk (pt g tl)).view.emb (ix3 (0 : Fin 1) i (0 : Fin 1))) = _
  congr 1
  funext a
  apply Fin.ext
  obtain ⟨e0, e1, e2⟩ := Glue.idx1_2 (pt g tl)
  have hv := pt_val g tl
  have hg := g.isLt
  have htl := tl.isLt
  match a with
  | ⟨0, _⟩ => show win1_2.index (pt g tl) (0 : Fin 3) * 1 + 1 * 0 = g.val; omega
  | ⟨1, _⟩ => show win1_2.index (pt g tl) (1 : Fin 3) * 1024 + 1 * i.val = tl.val * 1024 + i.val; omega
  | ⟨2, _⟩ => show win1_2.index (pt g tl) (2 : Fin 3) * 1 + 1 * 0 = 0; omega

/-! ## The accumulator and the output block after each point, as real numbers -/

/-- The body's arithmetic read at an index, at the ideal values. -/
structure KerFacts : Prop where
  pay1 : ∀ j : Fin 2048, (k1_pay1 (F := Ideal) : S1x2048.Idx → Elt Ideal .f32) (ix2 (0 : Fin 1) j) = ((0 : ℝ) : EReal)
  pay2 : ∀ (qb : Fin 1024 → Fin 128 → ℝ) (kb : Fin 2048 → Fin 128 → ℝ) (lse : Fin 1024 → ℝ) (acc : Fin 2048 → ℝ)
    (x0 : Vec Ideal S1x1024x128 .f32) (x1 : Vec Ideal S1x2048x128 .f32) (xl : Vec Ideal S1x1024x1 .f32) (xs : Vec Ideal S1x2048 .f32),
    (∀ (i : Fin 1024) (d : Fin 128), x0 (ix3 (0 : Fin 1) i d) = ((qb i d : ℝ) : EReal)) →
    (∀ (s : Fin 2048) (d : Fin 128), x1 (ix3 (0 : Fin 1) s d) = ((kb s d : ℝ) : EReal)) →
    (∀ i : Fin 1024, xl (ix3 (0 : Fin 1) i (0 : Fin 1)) = ((lse i : ℝ) : EReal)) →
    (∀ j : Fin 2048, xs (ix2 (0 : Fin 1) j) = ((acc j : ℝ) : EReal)) →
    ∀ j : Fin 2048, (k1_pay2 (F := Ideal) x0 x1 xl xs : S1x2048.Idx → Elt Ideal .f32) (ix2 (0 : Fin 1) j) = ((acc j + partKb qb kb lse j : ℝ) : EReal)
  pay3 : ∀ (xs : Vec Ideal S1x2048 .f32) (j : Fin 2048),
    (k1_pay3 (F := Ideal) xs : S1x1x2048.Idx → Elt Ideal .f32) (ix3 (0 : Fin 1) (0 : Fin 1) j) = xs (ix2 (0 : Fin 1) j)

variable (q3 k3 : Fin 64 → Fin 2048 → Fin 128 → ℝ)

/-- After tile 0 of pair g the accumulator holds tile 0's column shares (added to the zero row). -/
theorem acc_even (K : KerFacts) (hq : ∀ (g : Fin 64) (s : Fin 2048) (d : Fin 128), (V c main_v0 : S64x2048x128.Idx → Elt Ideal .f32) (ix3 g s d) = ((q3 g s d : ℝ) : EReal))
    (hk : ∀ (g : Fin 64) (s : Fin 2048) (d : Fin 128), (V c main_v1 : S64x2048x128.Idx → Elt Ideal .f32) (ix3 g s d) = ((k3 g s d : ℝ) : EReal))
    (hl : ∀ (g : Fin 64) (tl : Fin 2) (i : Fin 1024), (V c main_v3_1 : S64x2048x1.Idx → Elt Ideal .f32) (ix3 g (Cert.Attn.row tl i) (0 : Fin 1))
      = ((lseKb (tile (q3 g) tl) (k3 g) i : ℝ) : EReal))
    (g : Fin 64) (n : ℕ) (hn : n < cfg1.N) (e : n = (pt g 0).val) (j : Fin 2048) :
    ((outsAt1 V c n hn).2 : S1x2048.Idx → Elt Ideal .f32) (ix2 (0 : Fin 1) j)
      = ((0 + partKb (tile (q3 g) 0) (k3 g) (lseKb (tile (q3 g) 0) (k3 g)) j : ℝ) : EReal) := by
  subst e
  have h0 : (pt g 0).val % 2 = 0 := by show (2 * g.val + 0) % 2 = 0; omega
  have h1 : ¬ (pt g 0).val % 2 = 1 := by omega
  rw [outsAt1_A V c (pt g 0) h0 h1]
  dsimp only
  refine (congrFun (sout_A (F := Ideal) c (grid1.coords (pt g 0)) (ms1_0 (pt g 0)) (hs1_0 (pt g 0)) (ms1_1 (pt g 0)) (hs1_1 (pt g 0)) (ms1_2 (pt g 0)) (hs1_2 (pt g 0)) (ms1_3 (pt g 0)) (hs1_3 (pt g 0)) scM1_0 (Memref.isWhole_whole _) _ _ (iblk1 V c 0 (pt g 0)) (iblk1 V c 1 (pt g 0)) (iblk1 V c 2 (pt g 0))) (ix2 (0 : Fin 1) j)).trans ?_
  exact K.pay2 (tile (q3 g) 0) (k3 g) (lseKb (tile (q3 g) 0) (k3 g)) (fun _ => 0) (iblk1 V c 0 (pt g 0)) (iblk1 V c 1 (pt g 0)) (iblk1 V c 2 (pt g 0)) (k1_pay1 (F := Ideal))
    (fun i d => (blk0_apply V c g 0 i d).trans (hq g (Cert.Attn.row 0 i) d))
    (fun s d => (blk1_apply V c g 0 s d).trans (hk g s d))
    (fun i => (blk2_apply V c g 0 i).trans (hl g 0 i))
    K.pay1 j

/-- After tile 1 of pair g the output block holds the two tiles' column shares added up: the reference's column sums. -/
theorem out_odd (K : KerFacts) (hq : ∀ (g : Fin 64) (s : Fin 2048) (d : Fin 128), (V c main_v0 : S64x2048x128.Idx → Elt Ideal .f32) (ix3 g s d) = ((q3 g s d : ℝ) : EReal))
    (hk : ∀ (g : Fin 64) (s : Fin 2048) (d : Fin 128), (V c main_v1 : S64x2048x128.Idx → Elt Ideal .f32) (ix3 g s d) = ((k3 g s d : ℝ) : EReal))
    (hl : ∀ (g : Fin 64) (tl : Fin 2) (i : Fin 1024), (V c main_v3_1 : S64x2048x1.Idx → Elt Ideal .f32) (ix3 g (Cert.Attn.row tl i) (0 : Fin 1))
      = ((lseKb (tile (q3 g) tl) (k3 g) i : ℝ) : EReal))
    (g : Fin 64) (j : Fin 2048) :
    ((outsAt1 V c (pt g 1).val (pt g 1).isLt).1 : S1x1x2048.Idx → Elt Ideal .f32) (ix3 (0 : Fin 1) (0 : Fin 1) j)
      = ((scoreR (q3 g) (k3 g) j : ℝ) : EReal) := by
  have h1 : (pt g 1).val % 2 = 1 := by show (2 * g.val + 1) % 2 = 1; omega
  have h0 : ¬ (pt g 1).val % 2 = 0 := by omega
  rw [outsAt1_B V c (pt g 1) h0 h1]
  dsimp only
  refine (congrFun (out_B (F := Ideal) c (grid1.coords (pt g 1)) (ms1_0 (pt g 1)) (hs1_0 (pt g 1)) (ms1_1 (pt g 1)) (hs1_1 (pt g 1)) (ms1_2 (pt g 1)) (hs1_2 (pt g 1)) (ms1_3 (pt g 1)) (hs1_3 (pt g 1)) scM1_0 (Memref.isWhole_whole _) _ _ (iblk1 V c 0 (pt g 1)) (iblk1 V c 1 (pt g 1)) (iblk1 V c 2 (pt g 1))
    (outsAt1 V c ((pt g 1).val - 1) (Nat.lt_of_le_of_lt (Nat.sub_le _ _) (pt g 1).isLt)).2) (ix3 (0 : Fin 1) (0 : Fin 1) j)).trans ?_
  refine (K.pay3 _ j).trans ?_
  refine (K.pay2 (tile (q3 g) 1) (k3 g) (lseKb (tile (q3 g) 1) (k3 g))
    (fun j => 0 + partKb (tile (q3 g) 0) (k3 g) (lseKb (tile (q3 g) 0) (k3 g)) j)
    (iblk1 V c 0 (pt g 1)) (iblk1 V c 1 (pt g 1)) (iblk1 V c 2 (pt g 1))
    (outsAt1 V c ((pt g 1).val - 1) (Nat.lt_of_le_of_lt (Nat.sub_le _ _) (pt g 1).isLt)).2
    (fun i d => (blk0_apply V c g 1 i d).trans (hq g (Cert.Attn.row 1 i) d))
    (fun s d => (blk1_apply V c g 1 s d).trans (hk g s d))
    (fun i => (blk2_apply V c g 1 i).trans (hl g 1 i))
    (fun j => acc_even V c q3 k3 K hq hk hl g ((pt g 1).val - 1) _ (by show 2 * g.val + 1 - 1 = 2 * g.val + 0; omega) j) j).trans ?_
  rw [zero_add, score_eq]

/-! ## The output array after the call -/

/-- The column sums, as contents of the [64, 1, 2048] output array. -/
def scoreArr : S64x1x2048.Idx → EReal :=
  fun x => ((scoreR (q3 ⟨(x 0).val, (x 0).isLt⟩) (k3 ⟨(x 0).val, (x 0).isLt⟩) ⟨(x 2).val, (x 2).isLt⟩ : ℝ) : EReal)

theorem scoreArr_apply (g : Fin 64) (j : Fin 2048) :
    scoreArr q3 k3 (ix3 g (0 : Fin 1) j) = ((scoreR (q3 g) (k3 g) j : ℝ) : EReal) := rfl

/-- What a tile-1 point writes back is its block of the column sums. -/
theorem flushed_eq (K : KerFacts) (hq : ∀ (g : Fin 64) (s : Fin 2048) (d : Fin 128), (V c main_v0 : S64x2048x128.Idx → Elt Ideal .f32) (ix3 g s d) = ((q3 g s d : ℝ) : EReal))
    (hk : ∀ (g : Fin 64) (s : Fin 2048) (d : Fin 128), (V c main_v1 : S64x2048x128.Idx → Elt Ideal .f32) (ix3 g s d) = ((k3 g s d : ℝ) : EReal))
    (hl : ∀ (g : Fin 64) (tl : Fin 2) (i : Fin 1024), (V c main_v3_1 : S64x2048x1.Idx → Elt Ideal .f32) (ix3 g (Cert.Attn.row tl i) (0 : Fin 1))
      = ((lseKb (tile (q3 g) tl) (k3 g) i : ℝ) : EReal))
    (t : Fin cfg1.N) (hf : (cfg1.win 3).flush t = true) :
    (dat1 V c).flushed 3 t = ((cfg1.win 3).blk t).view.read (Elt Ideal) (scoreArr q3 k3) := by
  have h1 : t.val % 2 = 1 := (flush1_3 t).mp hf
  have hN : cfg1.N = 128 := N_1
  have htl := t.isLt
  obtain ⟨g, rfl⟩ : ∃ g : Fin 64, t = pt g 1 := ⟨⟨t.val / 2, by omega⟩, Fin.ext (by show t.val = 2 * (t.val / 2) + 1; omega)⟩
  show (cfg1.win 3).cut (grid1.coords (pt g 1)) ((dat1 V c).after 3 (pt g 1)) = _
  rw [after1_3]
  funext y
  obtain ⟨j, rfl⟩ : ∃ j : Fin 2048, (y : S1x1x2048.Idx) = ix3 (0 : Fin 1) (0 : Fin 1) j := by
    refine ⟨(y : S1x1x2048.Idx) 2, (eq_ix3 (y : S1x1x2048.Idx)).trans ?_⟩
    have e0 : (y : S1x1x2048.Idx) 0 = (0 : Fin 1) :=
      Fin.ext (by show ((y : S1x1x2048.Idx) 0).val = 0; have h : ((y : S1x1x2048.Idx) 0).val < 1 := ((y : S1x1x2048.Idx) 0).isLt; omega)
    have e1 : (y : S1x1x2048.Idx) 1 = (0 : Fin 1) :=
      Fin.ext (by show ((y : S1x1x2048.Idx) 1).val = 0; have h : ((y : S1x1x2048.Idx) 1).val < 1 := ((y : S1x1x2048.Idx) 1).isLt; omega)
    rw [e0, e1]
    rfl
  have hemb : ((cfg1.win 3).blk (pt g 1)).view.emb (ix3 (0 : Fin 1) (0 : Fin 1) j : S1x1x2048.Idx) = (ix3 g (0 : Fin 1) j : S64x1x2048.Idx) := by
    funext a
    apply Fin.ext
    obtain ⟨e0, e1, e2⟩ := Glue.idx1_3 (pt g 1)
    have hv := pt_val g 1
    have h1v : ((1 : Fin 2) : ℕ) = 1 := rfl
    have hg := g.isLt
    match a with
    | ⟨0, _⟩ => show win1_3.index (pt g 1) (0 : Fin 3) * 1 + 1 * 0 = g.val; omega
    | ⟨1, _⟩ => show win1_3.index (pt g 1) (1 : Fin 3) * 1 + 1 * 0 = 0; omega
    | ⟨2, _⟩ => show win1_3.index (pt g 1) (2 : Fin 3) * 2048 + 1 * j.val = j.val; omega
  show ((outsAt1 V c (pt g 1).val (pt g 1).isLt).1 : S1x1x2048.Idx → Elt Ideal .f32) (ix3 (0 : Fin 1) (0 : Fin 1) j)
    = scoreArr q3 k3 (((cfg1.win 3).blk (pt g 1)).view.emb (ix3 (0 : Fin 1) (0 : Fin 1) j : S1x1x2048.Idx))
  rw [hemb]
  exact out_odd V c q3 k3 K hq hk hl g j

/-- The output window's blocks are whole [1, 1, 2048] blocks at every point. -/
theorem xsize1_3 : ∀ t : Fin cfg1.N, win1_3.xsize (grid1.coords t) (0 : Fin 3) = 1 ∧ win1_3.xsize (grid1.coords t) (1 : Fin 3) = 1
    ∧ win1_3.xsize (grid1.coords t) (2 : Fin 3) = 2048 :=
  (by decide +kernel : ∀ t : Fin grid1.N, _)

/-- Every entry of the output array lies in the block of its pair's tile-1 point. -/
theorem covered (i : S64x1x2048.Idx) :
    ∃ t : Fin cfg1.N, (cfg1.win 3).flush t = true ∧ i ∈ ((cfg1.win 3).blk t).view.set := by
  have hi0 : (i 0).val < 64 := (i 0).isLt
  have hi1 : (i 1).val < 1 := (i 1).isLt
  have hi2 : (i 2).val < 2048 := (i 2).isLt
  refine ⟨pt ⟨(i 0).val, hi0⟩ 1, (flush1_3 _).mpr (by show (2 * (i 0).val + 1) % 2 = 1; omega), ?_⟩
  show i ∈ ((View.whole main_v4).slice (win1_3.rect (pt ⟨(i 0).val, hi0⟩ 1))).set
  rw [View.set_slice_whole, Rect.mem_set_unit]
  obtain ⟨e0, e1, e2⟩ := Glue.idx1_3 (pt ⟨(i 0).val, hi0⟩ 1)
  have hv : (pt ⟨(i 0).val, hi0⟩ 1).val = 2 * (i 0).val + 1 := rfl
  obtain ⟨x0, x1, x2⟩ := xsize1_3 (pt ⟨(i 0).val, hi0⟩ 1)
  intro a
  match a with
  | ⟨0, _⟩ =>
    show win1_3.index (pt ⟨(i 0).val, hi0⟩ 1) (0 : Fin 3) * 1 ≤ (i 0).val
      ∧ (i 0).val < win1_3.index (pt ⟨(i 0).val, hi0⟩ 1) (0 : Fin 3) * 1 + win1_3.xsize (grid1.coords (pt ⟨(i 0).val, hi0⟩ 1)) (0 : Fin 3)
    rw [x0]; omega
  | ⟨1, _⟩ =>
    show win1_3.index (pt ⟨(i 0).val, hi0⟩ 1) (1 : Fin 3) * 1 ≤ (i 1).val
      ∧ (i 1).val < win1_3.index (pt ⟨(i 0).val, hi0⟩ 1) (1 : Fin 3) * 1 + win1_3.xsize (grid1.coords (pt ⟨(i 0).val, hi0⟩ 1)) (1 : Fin 3)
    rw [x1]; omega
  | ⟨2, _⟩ =>
    show win1_3.index (pt ⟨(i 0).val, hi0⟩ 1) (2 : Fin 3) * 2048 ≤ (i 2).val
      ∧ (i 2).val < win1_3.index (pt ⟨(i 0).val, hi0⟩ 1) (2 : Fin 3) * 2048 + win1_3.xsize (grid1.coords (pt ⟨(i 0).val, hi0⟩ 1)) (2 : Fin 3)
    rw [x2]; omega

/-- The output array after the call: the reference's column sums of every (batch·head) pair. -/
theorem score_final_of (K : KerFacts) (hq : ∀ (g : Fin 64) (s : Fin 2048) (d : Fin 128), (V c main_v0 : S64x2048x128.Idx → Elt Ideal .f32) (ix3 g s d) = ((q3 g s d : ℝ) : EReal))
    (hk : ∀ (g : Fin 64) (s : Fin 2048) (d : Fin 128), (V c main_v1 : S64x2048x128.Idx → Elt Ideal .f32) (ix3 g s d) = ((k3 g s d : ℝ) : EReal))
    (hl : ∀ (g : Fin 64) (tl : Fin 2) (i : Fin 1024), (V c main_v3_1 : S64x2048x1.Idx → Elt Ideal .f32) (ix3 g (Cert.Attn.row tl i) (0 : Fin 1))
      = ((lseKb (tile (q3 g) tl) (k3 g) i : ℝ) : EReal))
    (g : Fin 64) (j : Fin 2048) :
    ((dat1 V c).arrAt 3 cfg1.N : S64x1x2048.Idx → Elt Ideal .f32) (ix3 g (0 : Fin 1) j) = ((Cert.Attn.scoreR (q3 g) (k3 g) j : ℝ) : EReal) :=
  (congrFun ((dat1 V c).arrAt_eq_of_cover 3 (scoreArr q3 k3) (flushed_eq V c q3 k3 K hq hk hl) covered) (ix3 g (0 : Fin 1) j)).trans
    (scoreArr_apply q3 k3 g j)

end Final

end Cert.Attn.ValB

end
-- ==== Proof.KerValue.lean ====
/-
  The two kernel bodies' values read at an index, as coerced reals: for one query tile the logits
  `(q·c)·kᵀ`, the row maximum, `p = exp (logit − row max)`, its row sum `l`, the output `(p·v) / l`
  and the log-sum-exp `row max + log l`; for the second body the share `∑ᵢ exp (logitᵢⱼ − lseᵢ)`
  added to the accumulator. Every operation is read at an index written by coordinates: a product
  into a zero accumulator is the sum over the contracted axis, a reduction over one axis a sum or a
  fold of `max`, and the casts and broadcasts move coordinates.
-/
import proofs.«104356_j50740743635464_2_alg».proof.Proof.Gen.KernelIdeal.Skeleton
import proofs.«104356_j50740743635464_2_alg».proof.Proof.AttnCoe
import proofs.«104356_j50740743635464_2_alg».proof.Proof.AttnAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Ker

open Cert.KernelIdeal Cert.KernelIdeal.Gen Idealize.ShloMosaic Idealize.ShloMosaic.ValueIdx
open scoped BigOperators

/-- The kernel's scale constant denotes `1 / D`, the rational the certificate's table gives its name. -/
theorem named_c : Named.named (F := Ideal) Cert.KernelIdeal.κ "fold_c_1048576_11863283" (φ := .f32) 0x3DB504F3#32
    = ((Cert.Attn.cInv : ℝ) : EReal) :=
  IdealRules.named_const.ideal_named_scalar _ _ _ _ rfl

/-! ## Column forms of a cast and a broadcast -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products read at an index -/

theorem qk_lhs_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem qk_lhs_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem qk_rhs_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem qk_rhs_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- `q·kᵀ` into a zero accumulator: at `(i, j)` the sum over the 128 lanes of `a (i, k) * b (j, k)`. -/
theorem matmul_qk_apply {φ₁ φ₂ : FTy} (a : FVec Ideal S1024x128 φ₁) (b : FVec Ideal S2048x128 φ₂) (i : Fin 1024) (j : Fin 2048) :
    matmul dot_S1024x128_S2048x128_S1024x2048_1_1_0_0_n_n none a b (constant S1024x2048 .f32 0x00000000#32) (ix2 i j)
      = ∑ k : Fin 128, a (ix2 i k) * b (ix2 j k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 i j) ((contrEquiv1 dot_S1024x128_S2048x128_S1024x2048_1_1_0_0_n_n 128 rfl rfl).symm k) = ix2 i k := funext fun c => Fin.ext (by
    match c with
    | ⟨0, _⟩ => exact qk_lhs_0 _ _
    | ⟨1, _⟩ => exact (qk_lhs_1 _ _).trans hk)
  have er : dot_S1024x128_S2048x128_S1024x2048_1_1_0_0_n_n.rhsIdx (ix2 i j) ((contrEquiv1 dot_S1024x128_S2048x128_S1024x2048_1_1_0_0_n_n 128 rfl rfl).symm k) = ix2 j k := funext fun c => Fin.ext (by
    match c with
    | ⟨0, _⟩ => exact qk_rhs_0 _ _
    | ⟨1, _⟩ => exact (qk_rhs_1 _ _).trans hk)
  rw [el, er]

theorem pv_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem pv_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem pv_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem pv_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- `p·v` into a zero accumulator: at `(i, d)` the sum over the 2048 keys of `a (i, j) * b (j, d)`. -/
theorem matmul_pv_apply {φ₁ φ₂ : FTy} (a : FVec Ideal S1024x2048 φ₁) (b : FVec Ideal S2048x128 φ₂) (i : Fin 1024) (d : Fin 128) :
    matmul dot_S1024x2048_S2048x128_S1024x128_1_0_0_1_n_n none a b (constant S1024x128 .f32 0x00000000#32) (ix2 i d)
      = ∑ j : Fin 2048, a (ix2 i j) * b (ix2 j d) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 i d) ((contrEquiv1 dot_S1024x2048_S2048x128_S1024x128_1_0_0_1_n_n 2048 rfl rfl).symm k) = ix2 i k := funext fun c => Fin.ext (by
    match c with
    | ⟨0, _⟩ => exact pv_lhs_0 _ _
    | ⟨1, _⟩ => exact (pv_lhs_1 _ _).trans hk)
  have er : dot_S1024x2048_S2048x128_S1024x128_1_0_0_1_n_n.rhsIdx (ix2 i d) ((contrEquiv1 dot_S1024x2048_S2048x128_S1024x128_1_0_0_1_n_n 2048 rfl rfl).symm k) = ix2 k d := funext fun c => Fin.ext (by
    match c with
    | ⟨0, _⟩ => exact (pv_rhs_0 _ _).trans hk
    | ⟨1, _⟩ => exact pv_rhs_1 _ _)
  rw [el, er]

/-! ## The first body -/

section Flash
variable (qb : Fin 1024 → Fin 128 → ℝ) (kb vb : Fin 2048 → Fin 128 → ℝ)
  (x0 : Vec Ideal S1x1024x128 .f32) (x1 x2 : Vec Ideal S1x2048x128 .f32)

/-- The logits `(q·c)·kᵀ`. -/
theorem pay1_apply (h0 : ∀ i d, x0 (ix3 0 i d) = ((qb i d : ℝ) : EReal)) (h1 : ∀ j d, x1 (ix3 0 j d) = ((kb j d : ℝ) : EReal))
    (i : Fin 1024) (j : Fin 2048) :
    k0_pay1 (F := Ideal) x0 x1 (ix2 i j) = ((Cert.Attn.logitKb qb kb i j : ℝ) : EReal) := by
  unfold k0_pay1
  refine (matmul_qk_apply _ _ i j).trans ?_
  unfold Cert.Attn.logitKb
  rw [Cert.Attn.coe_sum]
  refine Finset.sum_congr rfl fun k _ => ?_
  show (shapeCast S1024x128 x0 shapeCasts_S1x1024x128_S1024x128 (ix2 i k)
      * Named.named (F := Ideal) κ "fold_c_1048576_11863283" (φ := .f32) 0x3DB504F3#32)
      * shapeCast S2048x128 x1 shapeCasts_S1x2048x128_S2048x128 (ix2 j k) = _
  rw [shapeCast_1ab_ab_apply, shapeCast_1ab_ab_apply, h0, h1, named_c, ← EReal.coe_mul, ← EReal.coe_mul]

/-- The index a reduction over the key axis inserts: row `i`, key `j`. -/
theorem lift_row (i : Fin 1024) (j : Fin 2048) : reduces_S1024x2048_S1024.lift (ix1 i) j = ix2 i j :=
  funext fun c => Fin.ext (by
    match c with
    | ⟨0, _⟩ => rfl
    | ⟨1, _⟩ => rfl)

/-- The row maximum, kept as a column. -/
theorem pay2_apply (h0 : ∀ i d, x0 (ix3 0 i d) = ((qb i d : ℝ) : EReal)) (h1 : ∀ j d, x1 (ix3 0 j d) = ((kb j d : ℝ) : EReal))
    (i : Fin 1024) :
    k0_pay2 (F := Ideal) x0 x1 (ix2 i 0) = ((Cert.Attn.mKb qb kb i : ℝ) : EReal) := by
  unfold k0_pay2
  refine (shapeCast_a_a1_apply _ _ i 0).trans ?_
  refine (Ideal.multiReduction_maximumf_single _ _ _ _ _ (ix1 i)).trans ?_
  have hf : (fun j : Fin 2048 => k0_pay1 (F := Ideal) x0 x1 (reduces_S1024x2048_S1024.lift (ix1 i) j))
      = fun j => ((Cert.Attn.logitKb qb kb i j : ℝ) : EReal) :=
    funext fun j => by rw [lift_row]; exact pay1_apply qb kb x0 x1 h0 h1 i j
  show (Finset.univ : Finset (Fin 2048)).fold max (Ideal.ofBits .f32 0xFF800000#32)
      (fun j : Fin 2048 => k0_pay1 (F := Ideal) x0 x1 (reduces_S1024x2048_S1024.lift (ix1 i) j)) = _
  rw [hf, Cert.Attn.ofBits_neg_inf]
  exact Cert.Attn.fold_max_coe _

/-- `p = exp (logit − row max)`. -/
theorem pay3_apply (h0 : ∀ i d, x0 (ix3 0 i d) = ((qb i d : ℝ) : EReal)) (h1 : ∀ j d, x1 (ix3 0 j d) = ((kb j d : ℝ) : EReal))
    (i : Fin 1024) (j : Fin 2048) :
    k0_pay3 (F := Ideal) x0 x1 (ix2 i j) = ((Cert.Attn.pKb qb kb i j : ℝ) : EReal) := by
  unfold k0_pay3
  show Ideal.exp (k0_pay1 (F := Ideal) x0 x1 (ix2 i j)
      - broadcastTo S1024x2048 (k0_pay2 (F := Ideal) x0 x1) broadcasts_S1024x1_S1024x2048 (ix2 i j)) = _
  rw [broadcastTo_a1_ab_apply, pay1_apply qb kb x0 x1 h0 h1, pay2_apply qb kb x0 x1 h0 h1, ← EReal.coe_sub, Ideal.exp_coe]
  rfl

/-- `l`, the row sum of `p`, kept as a column. -/
theorem pay4_apply (h0 : ∀ i d, x0 (ix3 0 i d) = ((qb i d : ℝ) : EReal)) (h1 : ∀ j d, x1 (ix3 0 j d) = ((kb j d : ℝ) : EReal))
    (i : Fin 1024) :
    k0_pay4 (F := Ideal) x0 x1 (ix2 i 0) = ((Cert.Attn.lKb qb kb i : ℝ) : EReal) := by
  unfold k0_pay4
  refine (shapeCast_a_a1_apply _ _ i 0).trans ?_
  refine (Ideal.multiReduction_add_single _ _ _ _ _ (ix1 i)).trans ?_
  show ∑ j : Fin 2048, k0_pay3 (F := Ideal) x0 x1 (reduces_S1024x2048_S1024.lift (ix1 i) j) = _
  unfold Cert.Attn.lKb
  rw [Cert.Attn.coe_sum]
  refine Finset.sum_congr rfl fun j _ => ?_
  rw [lift_row]
  exact pay3_apply qb kb x0 x1 h0 h1 i j

end Flash

end Cert.Attn.Ker

end
-- ==== Proof.KerValueOut.lean ====
/-
  The first body's two results read at an index, as coerced reals: the tile's output `(p·v) / l` and its
  log-sum-exp `row max + log l`, from the values `p`, `l` and the row maximum read at an index.
-/
import proofs.«104356_j50740743635464_2_alg».proof.Proof.KerValue

noncomputable section

namespace Cert.Attn.Ker

open Cert.KernelIdeal Cert.KernelIdeal.Gen Idealize.ShloMosaic Idealize.ShloMosaic.ValueIdx
open scoped BigOperators

attribute [local irreducible] k0_pay1 k0_pay2 k0_pay3 k0_pay4

/-- A `[1024, 1]` column cast to `[1, 1024, 1]` reads the column at the same row. -/
theorem cast_col (a : FVec Ideal S1024x1 .f32) (i : Fin 1024) :
    shapeCast S1x1024x1 a shapeCasts_S1024x1_S1x1024x1 (ix3 (0 : Fin 1) i (0 : Fin 1)) = a (ix2 i (0 : Fin 1)) :=
  shapeCast_ab_1ab_apply _ _ _ _ _

/-- A `[1024, 128]` array cast to `[1, 1024, 128]` reads the array at the same row and lane. -/
theorem cast_out (a : FVec Ideal S1024x128 .f32) (i : Fin 1024) (d : Fin 128) :
    shapeCast S1x1024x128 a shapeCasts_S1024x128_S1x1024x128 (ix3 (0 : Fin 1) i d) = a (ix2 i d) :=
  shapeCast_ab_1ab_apply _ _ _ _ _

/-- A `[1, 2048, 128]` block cast to `[2048, 128]` reads the block at the same key and lane. -/
theorem cast_kv (a : Vec Ideal S1x2048x128 .f32) (j : Fin 2048) (d : Fin 128) :
    shapeCast S2048x128 a shapeCasts_S1x2048x128_S2048x128 (ix2 j d) = a (ix3 (0 : Fin 1) j d) :=
  shapeCast_1ab_ab_apply _ _ _ _

/-- A column broadcast over the 128 lanes reads the column at the same row. -/
theorem bcast_lanes (a : FVec Ideal S1024x1 .f32) (i : Fin 1024) (d : Fin 128) :
    broadcastTo S1024x128 a broadcasts_S1024x1_S1024x128 (ix2 i d) = a (ix2 i (0 : Fin 1)) :=
  broadcastTo_a1_ab_apply _ _ _ _

/-- Pointwise: a column plus the logarithm of a positive column. -/
theorem lse_point (a b : FVec Ideal S1024x1 .f32) (j : S1024x1.Idx) (m l : ℝ) (hl : 0 < l)
    (ha : a j = ((m : ℝ) : EReal)) (hb : b j = ((l : ℝ) : EReal)) :
    addf a (log b) j = ((m + Real.log l : ℝ) : EReal) := by
  show a j + Ideal.log (b j) = _
  rw [ha, hb, Cert.Attn.log_coe_pos _ hl, ← EReal.coe_add]

/-- Pointwise: an array over a non-zero column broadcast over the lanes. -/
theorem out_point (n : FVec Ideal S1024x128 .f32) (c : FVec Ideal S1024x1 .f32) (i : Fin 1024) (d : Fin 128) (s l : ℝ) (hl : l ≠ 0)
    (hn : n (ix2 i d) = ((s : ℝ) : EReal)) (hc : c (ix2 i (0 : Fin 1)) = ((l : ℝ) : EReal)) :
    divf n (broadcastTo S1024x128 c broadcasts_S1024x1_S1024x128) (ix2 i d) = ((s / l : ℝ) : EReal) := by
  show Ideal.div (n (ix2 i d)) (broadcastTo S1024x128 c broadcasts_S1024x1_S1024x128 (ix2 i d)) = _
  rw [bcast_lanes, hn, hc, Cert.Attn.div_coe_real _ _ hl]

section Flash
variable (qb : Fin 1024 → Fin 128 → ℝ) (kb vb : Fin 2048 → Fin 128 → ℝ)
  (x0 : Vec Ideal S1x1024x128 .f32) (x1 x2 : Vec Ideal S1x2048x128 .f32)

/-- `p·v` at `(i, d)`: the sum over the keys of `p (i, j) * v (j, d)`. -/
theorem pv_apply (p : FVec Ideal S1024x2048 .f32) (hp : ∀ i j, p (ix2 i j) = ((Cert.Attn.pKb qb kb i j : ℝ) : EReal))
    (h2 : ∀ j d, x2 (ix3 0 j d) = ((vb j d : ℝ) : EReal)) (i : Fin 1024) (d : Fin 128) :
    matmul dot_S1024x2048_S2048x128_S1024x128_1_0_0_1_n_n none
        (truncf .bf16 p bitsLt_bf16_f32)
        (truncf .bf16 (shapeCast S2048x128 x2 shapeCasts_S1x2048x128_S2048x128) bitsLt_bf16_f32)
        (constant S1024x128 .f32 0x00000000#32) (ix2 i d)
      = ((∑ j : Fin 2048, Cert.Attn.pKb qb kb i j * vb j d : ℝ) : EReal) := by
  refine (matmul_pv_apply _ _ i d).trans ?_
  rw [Cert.Attn.coe_sum]
  refine Finset.sum_congr rfl fun j _ => ?_
  show p (ix2 i j) * shapeCast S2048x128 x2 shapeCasts_S1x2048x128_S2048x128 (ix2 j d) = _
  rw [hp, cast_kv, h2, ← EReal.coe_mul]

/-- The tile's output `(p·v) / l`. -/
theorem pay5_apply (h0 : ∀ i d, x0 (ix3 0 i d) = ((qb i d : ℝ) : EReal)) (h1 : ∀ j d, x1 (ix3 0 j d) = ((kb j d : ℝ) : EReal))
    (h2 : ∀ j d, x2 (ix3 0 j d) = ((vb j d : ℝ) : EReal)) (i : Fin 1024) (d : Fin 128) :
    k0_pay5 (F := Ideal) x0 x1 x2 (ix3 0 i d) = ((Cert.Attn.outKb qb kb vb i d : ℝ) : EReal) := by
  unfold k0_pay5
  refine (cast_out _ i d).trans ?_
  exact out_point _ _ i d _ _ (Cert.Attn.lKb_pos qb kb i).ne'
    (pv_apply qb kb vb x2 (k0_pay3 (F := Ideal) x0 x1) (pay3_apply qb kb x0 x1 h0 h1) h2 i d)
    (pay4_apply qb kb x0 x1 h0 h1 i)

/-- The tile's log-sum-exp `row max + log l`. -/
theorem pay6_apply (h0 : ∀ i d, x0 (ix3 0 i d) = ((qb i d : ℝ) : EReal)) (h1 : ∀ j d, x1 (ix3 0 j d) = ((kb j d : ℝ) : EReal))
    (i : Fin 1024) :
    k0_pay6 (F := Ideal) x0 x1 (ix3 0 i 0) = ((Cert.Attn.lseKb qb kb i : ℝ) : EReal) := by
  unfold k0_pay6
  refine (cast_col _ i).trans ?_
  exact lse_point _ _ _ _ _ (Cert.Attn.lKb_pos qb kb i) (pay2_apply qb kb x0 x1 h0 h1 i) (pay4_apply qb kb x0 x1 h0 h1 i)

end Flash

end Cert.Attn.Ker

end
-- ==== Proof.KerValueScore.lean ====
/-
  The second body's values read at an index, as coerced reals: the zero it starts the accumulator at, the
  accumulator plus the tile's share `∑ᵢ exp (logitᵢⱼ − lseᵢ)` of column `j`, and the accumulator written out.
-/
import proofs.«104356_j50740743635464_2_alg».proof.Proof.KerValue

noncomputable section

namespace Cert.Attn.Ker

open Cert.KernelIdeal Cert.KernelIdeal.Gen Idealize.ShloMosaic Idealize.ShloMosaic.ValueIdx
open scoped BigOperators

/-- The accumulator starts at zero. -/
theorem k1_pay1_apply (j : Fin 2048) : k1_pay1 (F := Ideal) (ix2 0 j) = ((0 : ℝ) : EReal) := by
  unfold k1_pay1
  rw [shapeCast_self]
  show Ideal.ofBits .f32 0x00000000#32 = _
  rw [Ideal.ofBits_zero_f32]
  rfl

/-- The accumulator is written out as it is. -/
theorem k1_pay3_apply (xs : Vec Ideal S1x2048 .f32) (j : Fin 2048) :
    k1_pay3 (F := Ideal) xs (ix3 0 0 j) = xs (ix2 0 j) := by
  unfold k1_pay3
  exact shapeCast_ab_1ab_apply _ _ _ _ _

/-- The index a reduction over the query axis inserts: row `i`, key `j`. -/
theorem lift_col (i : Fin 1024) (j : Fin 2048) : reduces_S1024x2048_S2048.lift (ix1 j) i = ix2 i j :=
  funext fun c => Fin.ext (by
    match c with
    | ⟨0, _⟩ => rfl
    | ⟨1, _⟩ => rfl)

/-- The log-sum-exp column, read from its `[1, 1024, 1]` block and broadcast over the keys. -/
theorem lse_apply (xl : Vec Ideal S1x1024x1 .f32) (i : Fin 1024) (j : Fin 2048) :
    broadcastTo S1024x2048 (shapeCast S1024x1 xl shapeCasts_S1x1024x1_S1024x1) broadcasts_S1024x1_S1024x2048 (ix2 i j)
      = xl (ix3 (0 : Fin 1) i (0 : Fin 1)) :=
  (broadcastTo_a1_ab_apply _ _ i j).trans (shapeCast_1ab_ab_apply _ _ _ _)

/-- The column sums over the query axis of `exp (logit − lse)`, from the logits read at an index. -/
theorem colsum_apply (qb : Fin 1024 → Fin 128 → ℝ) (kb : Fin 2048 → Fin 128 → ℝ) (lse : Fin 1024 → ℝ)
    (s : FVec Ideal S1024x2048 .f32) (xl : Vec Ideal S1x1024x1 .f32)
    (hs : ∀ i j, s (ix2 i j) = ((Cert.Attn.logitKb qb kb i j : ℝ) : EReal))
    (hl : ∀ i, xl (ix3 0 i 0) = ((lse i : ℝ) : EReal)) (j : Fin 2048) :
    shapeCast S1x2048
        (multiReduction .add [0] S2048
          (exp (subf s (broadcastTo S1024x2048 (shapeCast S1024x1 xl shapeCasts_S1x1024x1_S1024x1) broadcasts_S1024x1_S1024x2048)))
          0x00000000#32 reduces_S1024x2048_S2048 (.inl rfl) rfl)
        shapeCasts_S2048_S1x2048 (ix2 (0 : Fin 1) j)
      = ((Cert.Attn.partKb qb kb lse j : ℝ) : EReal) := by
  refine (shapeCast_a_1a_apply _ _ 0 j).trans ?_
  refine (Ideal.multiReduction_add_single _ _ _ _ _ (ix1 j)).trans ?_
  show ∑ i : Fin 1024, Ideal.exp (s (reduces_S1024x2048_S2048.lift (ix1 j) i)
      - broadcastTo S1024x2048 (shapeCast S1024x1 xl shapeCasts_S1x1024x1_S1024x1) broadcasts_S1024x1_S1024x2048
          (reduces_S1024x2048_S2048.lift (ix1 j) i)) = _
  unfold Cert.Attn.partKb
  rw [Cert.Attn.coe_sum]
  refine Finset.sum_congr rfl fun i _ => ?_
  rw [lift_col, lse_apply, hs, hl, ← EReal.coe_sub, Ideal.exp_coe]

/-- The accumulator plus the tile's share of each column sum. -/
theorem k1_pay2_apply (qb : Fin 1024 → Fin 128 → ℝ) (kb : Fin 2048 → Fin 128 → ℝ) (lse : Fin 1024 → ℝ) (acc : Fin 2048 → ℝ)
    (x0 : Vec Ideal S1x1024x128 .f32) (x1 : Vec Ideal S1x2048x128 .f32) (xl : Vec Ideal S1x1024x1 .f32) (xs : Vec Ideal S1x2048 .f32)
    (h0 : ∀ i d, x0 (ix3 0 i d) = ((qb i d : ℝ) : EReal)) (h1 : ∀ j d, x1 (ix3 0 j d) = ((kb j d : ℝ) : EReal))
    (hl : ∀ i, xl (ix3 0 i 0) = ((lse i : ℝ) : EReal)) (hs : ∀ j, xs (ix2 0 j) = ((acc j : ℝ) : EReal)) (j : Fin 2048) :
    k1_pay2 (F := Ideal) x0 x1 xl xs (ix2 0 j) = ((acc j + Cert.Attn.partKb qb kb lse j : ℝ) : EReal) := by
  unfold k1_pay2
  rw [shapeCast_self]
  refine (congrArg₂ (· + ·) (hs j)
    (colsum_apply qb kb lse (k0_pay1 (F := Ideal) x0 x1) xl (pay1_apply qb kb x0 x1 h0 h1) hl j)).trans ?_
  rw [← EReal.coe_add]

end Cert.Attn.Ker

end
-- ==== Proof.Final.lean ====
/-
  The kernel program's two results are the reference's: the contents of the two result buffers at the end of @main, for
  real argument arrays, are the reference's two values. Each side is read at an index: the kernel's through the result
  views, the calls' arrays and the argument views down to the argument arrays; the reference's as the real attention
  output and column sums of the (batch, head) slice; the two real forms agree.
-/
import proofs.«104356_j50740743635464_2_alg».proof.Proof.RunK
import proofs.«104356_j50740743635464_2_alg».proof.Proof.Glue
import proofs.«104356_j50740743635464_2_alg».proof.Proof.RefValue
import proofs.«104356_j50740743635464_2_alg».proof.Proof.ValueA
import proofs.«104356_j50740743635464_2_alg».proof.Proof.ValueB
import proofs.«104356_j50740743635464_2_alg».proof.Proof.KerValueOut
import proofs.«104356_j50740743635464_2_alg».proof.Proof.KerValueScore

set_option maxRecDepth 16384

noncomputable section

namespace Cert.Attn.Fin

open Cert.KernelIdeal Cert.KernelIdeal.Gen Cert.KernelIdeal.Hand
open Idealize.ShloMosaic Idealize.ShloMosaic.TcCoe Idealize.ShloMosaic.ValueIdx
open Idealize.SL.Sem
open Cert.Attn.Glue

/-- A [4, 16, 2048, 128] real array with its two leading axes merged: entry `(g, s, d)` is entry `(g / 16, g % 16, s, d)`. -/
def merge (A : S4x16x2048x128.Idx → ℝ) : Fin 64 → Fin 2048 → Fin 128 → ℝ :=
  fun g s d => A (ix4 (⟨g.val / 16, by omega⟩ : Fin 4) (⟨g.val % 16, by omega⟩ : Fin 16) s d)

/-- At the merged coordinate of batch `b`, head `h` it is the (batch, head) slice. -/
theorem merge_bh (A : S4x16x2048x128.Idx → ℝ) (b : Fin 4) (h : Fin 16) : merge A (bh b h) = Cert.Attn.Ref.slice4 A b h := by
  funext s d
  unfold merge Cert.Attn.Ref.slice4
  have e1 : (⟨(bh b h).val / 16, by omega⟩ : Fin 4) = b := Fin.ext (by show (b.val * 16 + h.val) / 16 = b.val; omega)
  have e2 : (⟨(bh b h).val % 16, by omega⟩ : Fin 16) = h := Fin.ext (by show (b.val * 16 + h.val) % 16 = h.val; omega)
  rw [e1, e2]

variable (m : (ℓ : Loc nD τ sig) → Buf (Elt Ideal) ℓ) (ρ : Dev nD → PrngReg) (c : Dev nD)

/-! ## The first call's inputs are the argument arrays, merged -/

theorem V1_v0 (Qr : S4x16x2048x128.Idx → ℝ)
    (h0 : m ((c.tc : Thread nD τ).loc main_arg0) = fun i => ((Qr i : ℝ) : EReal)) (g : Fin 64) (s : Fin 2048) (d : Fin 128) :
    (V1 m ρ c main_v0 : S64x2048x128.Idx → EReal) (ix3 g s d) = ((merge Qr g s d : ℝ) : EReal) := by
  obtain ⟨b, h, rfl⟩ : ∃ (b : Fin 4) (h : Fin 16), g = bh b h := ⟨_, _, eq_bh g⟩
  rw [merge_bh]
  refine (after_hostOps0_v0_apply (W0 m ρ c) b h s d).trans ?_
  exact congrFun h0 (ix4 b h s d)

theorem V1_v1 (Kr : S4x16x2048x128.Idx → ℝ)
    (h1 : m ((c.tc : Thread nD τ).loc main_arg1) = fun i => ((Kr i : ℝ) : EReal)) (g : Fin 64) (s : Fin 2048) (d : Fin 128) :
    (V1 m ρ c main_v1 : S64x2048x128.Idx → EReal) (ix3 g s d) = ((merge Kr g s d : ℝ) : EReal) := by
  obtain ⟨b, h, rfl⟩ : ∃ (b : Fin 4) (h : Fin 16), g = bh b h := ⟨_, _, eq_bh g⟩
  rw [merge_bh]
  refine (after_hostOps0_v1_apply (W0 m ρ c) b h s d).trans ?_
  exact congrFun h1 (ix4 b h s d)

theorem V1_v2 (Vr : S4x16x2048x128.Idx → ℝ)
    (h2 : m ((c.tc : Thread nD τ).loc main_arg2) = fun i => ((Vr i : ℝ) : EReal)) (g : Fin 64) (s : Fin 2048) (d : Fin 128) :
    (V1 m ρ c main_v2 : S64x2048x128.Idx → EReal) (ix3 g s d) = ((merge Vr g s d : ℝ) : EReal) := by
  obtain ⟨b, h, rfl⟩ : ∃ (b : Fin 4) (h : Fin 16), g = bh b h := ⟨_, _, eq_bh g⟩
  rw [merge_bh]
  refine (after_hostOps0_v2_apply (W0 m ρ c) b h s d).trans ?_
  exact congrFun h2 (ix4 b h s d)

/-! ## The second call's inputs: the first call leaves its input arrays as entered, and its log-sum-exp array is an input of the second -/

/-- An input window's array of the first call is left as entered. -/
theorem V2_in (w : Fin cfg0.W) (hin : (cfg0.win w).isOut = false) :
    V2 m ρ c (Pipeline.arrRef spec0 w) = V1 m ρ c (Pipeline.arrRef spec0 w) :=
  (W2_arr m ρ c w).trans (((dat0 (V1 m ρ) c).arrAt_in w hin _).trans (A_eq0 (V1 m ρ) c w))

theorem V2_v0 (Qr : S4x16x2048x128.Idx → ℝ)
    (h0 : m ((c.tc : Thread nD τ).loc main_arg0) = fun i => ((Qr i : ℝ) : EReal)) (g : Fin 64) (s : Fin 2048) (d : Fin 128) :
    (V2 m ρ c main_v0 : S64x2048x128.Idx → EReal) (ix3 g s d) = ((merge Qr g s d : ℝ) : EReal) :=
  (congrFun (V2_in m ρ c 0 rfl) (ix3 g s d)).trans (V1_v0 m ρ c Qr h0 g s d)

theorem V2_v1 (Kr : S4x16x2048x128.Idx → ℝ)
    (h1 : m ((c.tc : Thread nD τ).loc main_arg1) = fun i => ((Kr i : ℝ) : EReal)) (g : Fin 64) (s : Fin 2048) (d : Fin 128) :
    (V2 m ρ c main_v1 : S64x2048x128.Idx → EReal) (ix3 g s d) = ((merge Kr g s d : ℝ) : EReal) :=
  (congrFun (V2_in m ρ c 1 rfl) (ix3 g s d)).trans (V1_v1 m ρ c Kr h1 g s d)

/-- The second call finds in `main_v3_1` what the first call's write-backs left in its fifth window's array. -/
theorem V2_lse : V2 m ρ c main_v3_1 = (dat0 (V1 m ρ) c).arrAt 4 cfg0.N := W2_arr m ρ c 4

/-! ## The two results -/

/-- The first result, given the first call's output array as the real attention output of each merged slice. -/
theorem kernel_v5_of (Qr Kr Vr : S4x16x2048x128.Idx → ℝ)
    (hout : ∀ (g : Fin 64) (s : Fin 2048) (d : Fin 128),
      ((dat0 (V1 m ρ) c).arrAt 3 cfg0.N : S64x2048x128.Idx → EReal) (ix3 g s d)
        = ((Cert.Attn.outR (merge Qr g) (merge Kr g) (merge Vr g) s d : ℝ) : EReal)) :
    (W4 m ρ c (Proc.devRef .tc main_v5) : S4x16x2048x128.Idx → EReal)
      = Cert.ReferenceIdeal.Read.val_main_v15 (F := Ideal) (fun i => ((Qr i : ℝ) : EReal)) (fun i => ((Kr i : ℝ) : EReal))
          (fun i => ((Vr i : ℝ) : EReal)) := by
  funext x
  obtain ⟨b, h, s, d, rfl⟩ : ∃ (b : Fin 4) (h : Fin 16) (s : Fin 2048) (d : Fin 128), x = ix4 b h s d :=
    ⟨x 0, x 1, x 2, x 3, eq_ix4 x⟩
  rw [Cert.Attn.Ref.ref_out Qr Kr Vr b h s d, ← merge_bh, ← merge_bh, ← merge_bh, ← hout (bh b h) s d]
  refine (after_hostOps2_v5_apply (W3 m ρ c) b h s d).trans ?_
  exact congrFun ((W3_of_ne m ρ c main_v3_0 (by decide)).trans (W2_arr m ρ c 3)) (ix3 (bh b h) s d)

/-- The second result, given the second call's output array as the real column sums of each merged slice. -/
theorem kernel_v6_of (Qr Kr : S4x16x2048x128.Idx → ℝ)
    (hscore : ∀ (g : Fin 64) (j : Fin 2048),
      ((dat1 (V2 m ρ) c).arrAt 3 cfg1.N : S64x1x2048.Idx → EReal) (ix3 g (0 : Fin 1) j)
        = ((Cert.Attn.scoreR (merge Qr g) (merge Kr g) j : ℝ) : EReal)) :
    (W4 m ρ c (Proc.devRef .tc main_v6) : S4x16x2048.Idx → EReal)
      = Cert.ReferenceIdeal.Read.val_main_v14 (F := Ideal) (fun i => ((Qr i : ℝ) : EReal)) (fun i => ((Kr i : ℝ) : EReal)) := by
  funext x
  obtain ⟨b, h, j, rfl⟩ : ∃ (b : Fin 4) (h : Fin 16) (j : Fin 2048), x = ix3 b h j := ⟨x 0, x 1, x 2, eq_ix3 x⟩
  rw [Cert.Attn.Ref.ref_score Qr Kr b h j, ← merge_bh, ← merge_bh, ← hscore (bh b h) j]
  refine (after_hostOps2_v6_apply (W3 m ρ c) b h j).trans ?_
  exact congrFun (W3_arr m ρ c 3) (ix3 (bh b h) (0 : Fin 1) j)

/-! ## The two results, from the calls' values and the bodies' arithmetic

The bodies' arithmetic at an index (the three facts the calls' values are stated over) is taken as hypotheses here. -/

/-- The first result is the reference's, given the first body's output arithmetic at an index. -/
theorem kernel_v5_of_pay (Qr Kr Vr : S4x16x2048x128.Idx → ℝ)
    (h0 : m ((c.tc : Thread nD τ).loc main_arg0) = fun i => ((Qr i : ℝ) : EReal))
    (h1 : m ((c.tc : Thread nD τ).loc main_arg1) = fun i => ((Kr i : ℝ) : EReal))
    (h2 : m ((c.tc : Thread nD τ).loc main_arg2) = fun i => ((Vr i : ℝ) : EReal))
    (hp5 : ∀ (qb : Fin 1024 → Fin 128 → ℝ) (kb vb : Fin 2048 → Fin 128 → ℝ)
      (x0 : Vec Ideal S1x1024x128 .f32) (x1 x2 : Vec Ideal S1x2048x128 .f32),
      (∀ i d, x0 (ix3 (0 : Fin 1) i d) = ((qb i d : ℝ) : EReal)) → (∀ j d, x1 (ix3 (0 : Fin 1) j d) = ((kb j d : ℝ) : EReal)) →
      (∀ j d, x2 (ix3 (0 : Fin 1) j d) = ((vb j d : ℝ) : EReal)) →
      ∀ i d, k0_pay5 (F := Ideal) x0 x1 x2 (ix3 (0 : Fin 1) i d) = ((Cert.Attn.outKb qb kb vb i d : ℝ) : EReal)) :
    (W4 m ρ c (Proc.devRef .tc main_v5) : S4x16x2048x128.Idx → EReal)
      = Cert.ReferenceIdeal.Read.val_main_v15 (F := Ideal) (fun i => ((Qr i : ℝ) : EReal)) (fun i => ((Kr i : ℝ) : EReal))
          (fun i => ((Vr i : ℝ) : EReal)) :=
  kernel_v5_of m ρ c Qr Kr Vr
    (Cert.Attn.ValA.out_final (V1 m ρ) c (merge Qr) (merge Kr) (merge Vr)
      (V1_v0 m ρ c Qr h0) (V1_v1 m ρ c Kr h1) (V1_v2 m ρ c Vr h2) hp5)

/-- The second result is the reference's, given the first body's log-sum-exp arithmetic and the second body's arithmetic at an index. -/
theorem kernel_v6_of_pay (Qr Kr : S4x16x2048x128.Idx → ℝ)
    (h0 : m ((c.tc : Thread nD τ).loc main_arg0) = fun i => ((Qr i : ℝ) : EReal))
    (h1 : m ((c.tc : Thread nD τ).loc main_arg1) = fun i => ((Kr i : ℝ) : EReal))
    (hp6 : ∀ (qb : Fin 1024 → Fin 128 → ℝ) (kb : Fin 2048 → Fin 128 → ℝ)
      (x0 : Vec Ideal S1x1024x128 .f32) (x1 : Vec Ideal S1x2048x128 .f32),
      (∀ i d, x0 (ix3 (0 : Fin 1) i d) = ((qb i d : ℝ) : EReal)) → (∀ j d, x1 (ix3 (0 : Fin 1) j d) = ((kb j d : ℝ) : EReal)) →
      ∀ i, k0_pay6 (F := Ideal) x0 x1 (ix3 (0 : Fin 1) i (0 : Fin 1)) = ((Cert.Attn.lseKb qb kb i : ℝ) : EReal))
    (K : Cert.Attn.ValB.KerFacts) :
    (W4 m ρ c (Proc.devRef .tc main_v6) : S4x16x2048.Idx → EReal)
      = Cert.ReferenceIdeal.Read.val_main_v14 (F := Ideal) (fun i => ((Qr i : ℝ) : EReal)) (fun i => ((Kr i : ℝ) : EReal)) :=
  kernel_v6_of m ρ c Qr Kr
    (Cert.Attn.ValB.score_final_of (V2 m ρ) c (merge Qr) (merge Kr) K
      (V2_v0 m ρ c Qr h0) (V2_v1 m ρ c Kr h1)
      (fun g tl i => (congrFun (V2_lse m ρ c) (ix3 g (Cert.Attn.row tl i) (0 : Fin 1))).trans
        (Cert.Attn.ValA.lse_final (V1 m ρ) c (merge Qr) (merge Kr) (V1_v0 m ρ c Qr h0) (V1_v1 m ρ c Kr h1) hp6 g tl i)))

/-! ## The two results -/

/-- THE FIRST RESULT: the kernel program's output array is the reference's attention output. -/
theorem kernel_v5 (Qr Kr Vr : S4x16x2048x128.Idx → ℝ)
    (h0 : m ((c.tc : Thread nD τ).loc main_arg0) = fun i => ((Qr i : ℝ) : EReal))
    (h1 : m ((c.tc : Thread nD τ).loc main_arg1) = fun i => ((Kr i : ℝ) : EReal))
    (h2 : m ((c.tc : Thread nD τ).loc main_arg2) = fun i => ((Vr i : ℝ) : EReal)) :
    (W4 m ρ c (Proc.devRef .tc main_v5) : S4x16x2048x128.Idx → EReal)
      = Cert.ReferenceIdeal.Read.val_main_v15 (F := Ideal) (fun i => ((Qr i : ℝ) : EReal)) (fun i => ((Kr i : ℝ) : EReal))
          (fun i => ((Vr i : ℝ) : EReal)) :=
  kernel_v5_of_pay m ρ c Qr Kr Vr h0 h1 h2
    (fun qb kb vb x0 x1 x2 e0 e1 e2 i d => Cert.Attn.Ker.pay5_apply qb kb vb x0 x1 x2 e0 e1 e2 i d)

/-- THE SECOND RESULT: the kernel program's score array is the reference's column sums of the attention matrix. -/
theorem kernel_v6 (Qr Kr Vr : S4x16x2048x128.Idx → ℝ)
    (h0 : m ((c.tc : Thread nD τ).loc main_arg0) = fun i => ((Qr i : ℝ) : EReal))
    (h1 : m ((c.tc : Thread nD τ).loc main_arg1) = fun i => ((Kr i : ℝ) : EReal))
    (h2 : m ((c.tc : Thread nD τ).loc main_arg2) = fun i => ((Vr i : ℝ) : EReal)) :
    (W4 m ρ c (Proc.devRef .tc main_v6) : S4x16x2048.Idx → EReal)
      = Cert.ReferenceIdeal.Read.val_main_v14 (F := Ideal) (fun i => ((Qr i : ℝ) : EReal)) (fun i => ((Kr i : ℝ) : EReal)) :=
  kernel_v6_of_pay m ρ c Qr Kr h0 h1
    (fun qb kb x0 x1 e0 e1 i => Cert.Attn.Ker.pay6_apply qb kb x0 x1 e0 e1 i)
    ⟨Cert.Attn.Ker.k1_pay1_apply,
     fun qb kb lse acc x0 x1 xl xs e0 e1 el es j => Cert.Attn.Ker.k1_pay2_apply qb kb lse acc x0 x1 xl xs e0 e1 el es j,
     Cert.Attn.Ker.k1_pay3_apply⟩

end Cert.Attn.Fin

end
-- ==== Proof.lean ====
/-
  Scaled dot-product attention with the column sums of the attention matrix: a two-pass kernel against the plain reference.

  The kernel's program reshapes Q, K, V from [4,16,2048,128] to [64,2048,128], runs a forward pass per (batch-head, query tile)
  that stores the tile's output `(p·v)/l` and its log-sum-exp column `m + log l` (`p = exp (s − m)`, `m` the row maximum of the
  logits `s = (q·c)·kᵀ`, `l` the row sum of `p`), then a second pass that recomputes the logits, forms `exp (s − lse)`, sums it
  over the tile's queries and accumulates the two tiles of a batch-head pair into that pair's column sums, and reshapes both
  results back. The reference computes `softmax((q·kᵀ)/D)`, its product with `v` and its sums over the query axis.

  The kernel's scale constant is named: at the ideal instance it denotes exactly `1/D`, `D` the exact value of the reference's
  divisor word. With that, on finite inputs every intermediate value is a real number, and over the reals the two programs compute
  one function: the scale moves across the contraction, `(∑ⱼ pⱼ vⱼ)/l = ∑ⱼ (pⱼ/l) vⱼ`, and `exp (s − (m + log l)) = exp (s − m)/l`.

  The frames: each kernel call is a pipeline region whose body is run symbolically once per control case (the second call has two:
  query tile 0 clears its accumulator first, query tile 1 copies it out last), the accumulator's contents carried by the region's
  invariant; @main is the list host stretch, region, region, host stretch.
-/
import proofs.«104356_j50740743635464_2_alg».proof.Defs
import proofs.«104356_j50740743635464_2_alg».proof.Proof.Gen.Kernel
import proofs.«104356_j50740743635464_2_alg».proof.Proof.Gen.KernelIdeal
import proofs.«104356_j50740743635464_2_alg».proof.Proof.Gen.ReferenceIdeal
import proofs.«104356_j50740743635464_2_alg».proof.Proof.Gen.Pre_finite_inputs
import proofs.«104356_j50740743635464_2_alg».proof.Proof.Gen.ReferenceIdeal.Run
import proofs.«104356_j50740743635464_2_alg».proof.Proof.Gen.ReferenceIdeal.Read
import proofs.«104356_j50740743635464_2_alg».proof.Proof.BitsRunK
import proofs.«104356_j50740743635464_2_alg».proof.Proof.RunK
import proofs.«104356_j50740743635464_2_alg».proof.Proof.AttnFinite
import proofs.«104356_j50740743635464_2_alg».proof.Proof.Final
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- The ledger's two entries (one per kernel): the table gives the scale constant's name the value `1/D`. -/
theorem preserves : Cert.preserves_Kernel_KernelIdeal :=
  ⟨IdealRules.named_const.statement Cert.KernelIdeal.κ "fold_c_1048576_11863283" .f32 0x3DB504F3#32 ((1048576 / 11863283 : ℝ) : EReal) rfl,
   IdealRules.named_const.statement Cert.KernelIdeal.κ "fold_c_1048576_11863283" .f32 0x3DB504F3#32 ((1048576 / 11863283 : ℝ) : EReal) rfl⟩

/-- Both programs end with the same two arrays: the kernel's run leaves its results at the last boundary's contents, which on
    finite inputs are the reference's two result stages of the same arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W4 (F := Ideal) m ρ c (Proc.devRef .tc Cert.KernelIdeal.main_v5),
    fun c => Cert.KernelIdeal.Hand.W4 (F := Ideal) m ρ c (Proc.devRef .tc Cert.KernelIdeal.main_v6), ?_, ?_⟩
  · exact (θ_run Cert.KernelIdeal.defs _ _).mono (fun _ h c =>
      ⟨h c _ (Cert.KernelIdeal.Hand.mem_uc Cert.KernelIdeal.main_v5 (by decide)),
       h c _ (Cert.KernelIdeal.Hand.mem_uc Cert.KernelIdeal.main_v6 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c)⟩)
      (Cert.KernelIdeal.Hand.run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨Qr, Kr, Vr, h0, h1, h2⟩ := Cert.Attn.real_of_pre _ _ _ (hpre c)
      rw [(hagree c).1, (hagree c).2.1, (hagree c).2.2, h0, h1, h2]
      exact (Cert.ReferenceIdeal.Read.val_main_v15_eq _ _ _).trans (Cert.Attn.Fin.kernel_v5 m ρ c Qr Kr Vr h0 h1 h2).symm
    · obtain ⟨Qr, Kr, Vr, h0, h1, h2⟩ := Cert.Attn.real_of_pre _ _ _ (hpre c)
      rw [(hagree c).1, (hagree c).2.1, h0, h1]
      exact (Cert.ReferenceIdeal.Read.val_main_v14_eq _ _).trans (Cert.Attn.Fin.kernel_v6 m ρ c Qr Kr Vr h0 h1 h2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
